-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3072x2048 : Shape := ⟨3, ![4, 3072, 2048]⟩
abbrev S_ : Shape := ⟨0, ![]⟩

class Facts : Prop where
  bcast_S_S4x3072x2048 : S_.BroadcastsInDim S4x3072x2048 (![] : Fin 0 → Fin S4x3072x2048.rank)
  reducesTo_S4x3072x2048_S_d0_1_2 : S4x3072x2048.ReducesTo [0, 1, 2] S_
  h_S_ : 0 < S_.numel

variable [Facts]

def fn {F : FTy → Type} [FloatOps F] (main_arg0 : FVec F S4x3072x2048 .f32) : IVec S_ 1 :=
  let main_v0 : FVec F S4x3072x2048 .f32 := Host.absf main_arg0
  let main_cst : FVec F S_ .f32 := constant S_ .f32 0x7F800000#32
  let main_v1 : FVec F S4x3072x2048 .f32 := broadcastInDim S4x3072x2048 ![] bcast_S_S4x3072x2048 main_cst
  let main_v2 : IVec S4x3072x2048 1 := cmpf .olt main_v0 main_v1
  let main_c : IVec S_ 1 := constantI S_ 1 1#1
  let main_v3 : IVec S_ 1 := (fun x v => Host.reduce IntOp.andi x v reducesTo_S4x3072x2048_S_d0_1_2 h_S_) main_v2 main_c
  main_v3
-- ==== Kernel.lean ====
abbrev S4x3072x2048 : Shape := ⟨3, ![4, 3072, 2048]⟩
abbrev S4x3x16x64x2048 : Shape := ⟨5, ![4, 3, 16, 64, 2048]⟩
abbrev S192x64x2048 : Shape := ⟨3, ![192, 64, 2048]⟩
abbrev S64x64x2048 : Shape := ⟨3, ![64, 64, 2048]⟩
abbrev S1x64x1024 : Shape := ⟨3, ![1, 64, 1024]⟩
abbrev S1x64x2048 : Shape := ⟨3, ![1, 64, 2048]⟩
abbrev S64x2048 : Shape := ⟨2, ![64, 2048]⟩
abbrev S64x1024 : Shape := ⟨2, ![64, 1024]⟩
abbrev S1024x2048 : Shape := ⟨2, ![1024, 2048]⟩
abbrev S1024 : Shape := ⟨1, ![1024]⟩
abbrev S1024x1 : Shape := ⟨2, ![1024, 1]⟩
abbrev S4x16x64x2048 : Shape := ⟨4, ![4, 16, 64, 2048]⟩
abbrev S4x1024x2048 : Shape := ⟨3, ![4, 1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S4x3072x2048, .f32⟩
  | .hbm, ⟨1, _⟩ => ⟨S4x3x16x64x2048, .f32⟩
  | .hbm, ⟨2, _⟩ => ⟨S192x64x2048, .f32⟩
  | .hbm, ⟨3, _⟩ => ⟨S64x64x2048, .f32⟩
  | .hbm, ⟨4, _⟩ => ⟨S4x16x64x2048, .f32⟩
  | .hbm, ⟨5, _⟩ => ⟨S4x1024x2048, .f32⟩
  | .local _ .vmem, ⟨0, _⟩ => ⟨S1x64x1024, .f32⟩
  | .local _ .vmem, ⟨1, _⟩ => ⟨S1x64x1024, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x1024, .f32⟩
  | .local _ .vmem, ⟨7, _⟩ => ⟨S1x64x1024, .f32⟩
  | .local _ .vmem, ⟨8, _⟩ => ⟨S64x2048, .bf16⟩
  | .local _ .vmem, ⟨9, _⟩ => ⟨S64x2048, .bf16⟩
  | _, _ => ⟨S4x3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.muli v16 c3_i32
  let c16_i32_10 : BitVec 32 := 16#32
  let v28 : BitVec 32 := Scalar.muli v27 c16_i32_10
  let v29 : BitVec 32 := Scalar.addi v28 v26
  let c0_i32_11 : BitVec 32 := 0#32
  let c0_i32_12 : BitVec 32 := 0#32
  ![v29.toNat, c0_i32_11.toNat, arg1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.muli v16 c3_i32
  let c16_i32_10 : BitVec 32 := 16#32
  let v28 : BitVec 32 := Scalar.muli v27 c16_i32_10
  let c16_i32_11 : BitVec 32 := 16#32
  let v29 : BitVec 32 := Scalar.addi v28 c16_i32_11
  let v30 : BitVec 32 := Scalar.addi v29 v26
  let c0_i32_12 : BitVec 32 := 0#32
  let c0_i32_13 : BitVec 32 := 0#32
  let c0_i32_14 : BitVec 32 := 0#32
  ![v30.toNat, c0_i32_12.toNat, c0_i32_13.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.muli v16 c3_i32
  let c16_i32_10 : BitVec 32 := 16#32
  let v28 : BitVec 32 := Scalar.muli v27 c16_i32_10
  let c32_i32 : BitVec 32 := 32#32
  let v29 : BitVec 32 := Scalar.addi v28 c32_i32
  let v30 : BitVec 32 := Scalar.addi v29 v26
  let c0_i32_11 : BitVec 32 := 0#32
  let c0_i32_12 : BitVec 32 := 0#32
  let c0_i32_13 : BitVec 32 := 0#32
  ![v30.toNat, c0_i32_11.toNat, c0_i32_12.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x3072x2048_S4x3x16x64x2048 : S4x3072x2048.ShapeCasts S4x3x16x64x2048
  shapeCasts_S4x3x16x64x2048_S192x64x2048 : S4x3x16x64x2048.ShapeCasts S192x64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  packedbf16_S64x2048_S64x2048_0_0 : (Rect.unit (s := S64x2048) ![0, 0] S64x2048.size inb_S64x2048_S64x2048_0_0).PackedRows (EltTy.packing .bf16)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  reduces_S1024x2048_S1024 : S1024x2048.Reduces [1] S1024
  shapeCasts_S1024_S1024x1 : S1024.ShapeCasts S1024x1
  broadcasts_S1024x1_S1024x2048 : S1024x1.Broadcasts S1024x2048
  shapeCasts_S64x1024_S1x64x1024 : S64x1024.ShapeCasts S1x64x1024
  shapeCasts_S64x64x2048_S4x16x64x2048 : S64x64x2048.ShapeCasts S4x16x64x2048
  shapeCasts_S4x16x64x2048_S4x1024x2048 : S4x16x64x2048.ShapeCasts S4x1024x2048
  dot_S64x1024_S64x2048_S1024x2048_0_0_1_1_n_n_wf : DotDims.WF S64x1024 S64x2048 S1024x2048 [0] [0] [1] [1] [] []
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S192x64x2048.size a
  hwx0_0 : ∀ i : grid0.Coords, EltTy.bits .f32 = 32 ∨ (Rect.block (s := S192x64x2048) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S192x64x2048.size a
  hwx0_1 : ∀ i : grid0.Coords, EltTy.bits .f32 = 32 ∨ (Rect.block (s := S192x64x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S192x64x2048.size a
  hwx0_2 : ∀ i : grid0.Coords, EltTy.bits .f32 = 32 ∨ (Rect.block (s := S192x64x2048) S1x64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S64x64x2048.size a
  hwx0_3 : ∀ i : grid0.Coords, EltTy.bits .f32 = 32 ∨ (Rect.block (s := S64x64x2048) S1x64x1024.size (cc0_transform_3 i) (hinb0_3 i)).WholeWords (EltTy.packing .f32)

variable [Facts₀]

def dot_S64x1024_S64x2048_S1024x2048_0_0_1_1_n_n : DotDims S64x1024 S64x2048 S1024x2048 where
  lhsContracting := [0]
  rhsContracting := [0]
  lhsNonContracting := [1]
  rhsNonContracting := [1]
  lhsBatch := []
  rhsBatch := []
  wf := dot_S64x1024_S64x2048_S1024x2048_0_0_1_1_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_v1) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x3072x2048 : Shape := ⟨3, ![4, 3072, 2048]⟩
abbrev S4x3x16x64x2048 : Shape := ⟨5, ![4, 3, 16, 64, 2048]⟩
abbrev S4x1x16x64x2048 : Shape := ⟨5, ![4, 1, 16, 64, 2048]⟩
abbrev S4x16x64x2048 : Shape := ⟨4, ![4, 16, 64, 2048]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x1024x2048 : Shape := ⟨3, ![4, 1024, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x3072x2048, .f32⟩
  | .hbm, ⟨1, _⟩ => ⟨S4x3x16x64x2048, .f32⟩
  | .hbm, ⟨2, _⟩ => ⟨S4x1x16x64x2048, .f32⟩
  | .hbm, ⟨3, _⟩ => ⟨S4x16x64x2048, .f32⟩
  | .hbm, ⟨4, _⟩ => ⟨S4x1x16x64x2048, .f32⟩
  | .hbm, ⟨5, _⟩ => ⟨S4x16x64x2048, .f32⟩
  | .hbm, ⟨6, _⟩ => ⟨S4x1x16x64x2048, .f32⟩
  | .hbm, ⟨7, _⟩ => ⟨S4x16x64x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x16x64x2048, .f32⟩
  | .hbm, ⟨14, _⟩ => ⟨S4x16x64x2048, .f32⟩
  | .hbm, ⟨15, _⟩ => ⟨S4x16x64x2048, .f32⟩
  | .hbm, ⟨16, _⟩ => ⟨S4x16x64x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x64x2048, .f32⟩
  | .hbm, ⟨33, _⟩ => ⟨S4x1024x2048, .f32⟩
  | _, _ => ⟨S4x3072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]

class Facts₀ : Prop where
  shapeCasts_S4x3072x2048_S4x3x16x64x2048 : S4x3072x2048.ShapeCasts S4x3x16x64x2048
  slices_S4x3x16x64x2048_S4x1x16x64x2048_0_0_0_0_0 : S4x3x16x64x2048.Slices ![0, 0, 0, 0, 0] S4x1x16x64x2048
  shapeCasts_S4x1x16x64x2048_S4x16x64x2048 : S4x1x16x64x2048.ShapeCasts S4x16x64x2048
  slices_S4x3x16x64x2048_S4x1x16x64x2048_0_1_0_0_0 : S4x3x16x64x2048.Slices ![0, 1, 0, 0, 0] S4x1x16x64x2048
  slices_S4x3x16x64x2048_S4x1x16x64x2048_0_2_0_0_0 : S4x3x16x64x2048.Slices ![0, 2, 0, 0, 0] S4x1x16x64x2048
  bcast_S_S4x16x64x2048 : S_.BroadcastsInDim S4x16x64x2048 (![] : Fin 0 → Fin S4x16x64x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  shapeCasts_S4x16x64x2048_S4x1024x2048 : S4x16x64x2048.ShapeCasts S4x1024x2048
  dot_S4x16x64x2048_S4x16x64x2048_S4x16x2048x2048_2_2_3_3_01_01_wf : DotDims.WF S4x16x64x2048 S4x16x64x2048 S4x16x2048x2048 [2] [2] [3] [3] [0, 1] [0, 1]
  dot_S4x16x64x2048_S4x16x2048x2048_S4x16x64x2048_3_3_2_2_01_01_wf : DotDims.WF S4x16x64x2048 S4x16x2048x2048 S4x16x64x2048 [3] [3] [2] [2] [0, 1] [0, 1]

variable [Facts₀]

def dot_S4x16x64x2048_S4x16x64x2048_S4x16x2048x2048_2_2_3_3_01_01 : DotDims S4x16x64x2048 S4x16x64x2048 S4x16x2048x2048 where
  lhsContracting := [2]
  rhsContracting := [2]
  lhsNonContracting := [3]
  rhsNonContracting := [3]
  lhsBatch := [0, 1]
  rhsBatch := [0, 1]
  wf := dot_S4x16x64x2048_S4x16x64x2048_S4x16x2048x2048_2_2_3_3_01_01_wf
def dot_S4x16x64x2048_S4x16x2048x2048_S4x16x64x2048_3_3_2_2_01_01 : DotDims S4x16x64x2048 S4x16x2048x2048 S4x16x64x2048 where
  lhsContracting := [3]
  rhsContracting := [3]
  lhsNonContracting := [2]
  rhsNonContracting := [2]
  lhsBatch := [0, 1]
  rhsBatch := [0, 1]
  wf := dot_S4x16x64x2048_S4x16x2048x2048_S4x16x64x2048_3_3_2_2_01_01_wf

class Facts : Prop extends Facts₀ where

variable [Facts]
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.KBody.lean ====
import proofs.«163904_j31181462569018_2_alg».proof.Proof.Gen.Kernel.Launch
import proofs.«163904_j31181462569018_2_alg».proof.Proof.Gen.Kernel.Skeleton
import proofs.«163904_j31181462569018_2_alg».proof.Proof.Gen.Kernel.Points
import proofs.«163904_j31181462569018_2_alg».proof.Proof.LibWholeStores
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the second grid coordinate is zero (the point begins a head). -/
abbrev cond0 (i : grid0.Coords) : Prop :=
  (Scalar.cmpi .ne (Scalar.extui (Scalar.cmpi .eq (BitVec.ofNat 32 (i 1).val) 0#32)) 0#32) = 1#1

/-- Over the grid it holds at the even points. -/
theorem hcond0 : ∀ t : Fin cfg0.N, cond0 (grid0.coords t) ↔ t.val % 2 = 0 :=
  (by decide +kernel : ∀ t : Fin grid0.N, cond0 (grid0.coords t) ↔ t.val % 2 = 0)

theorem hz3 : (![0, 0, 0] : Fin 3 → Nat) = fun _ => 0 := by
  funext a; match a with | ⟨0, _⟩ => rfl | ⟨1, _⟩ => rfl | ⟨2, _⟩ => rfl
theorem hz2 : (![0, 0] : Fin 2 → Nat) = fun _ => 0 := by
  funext a; match a with | ⟨0, _⟩ => rfl | ⟨1, _⟩ => rfl

/-- The body at a point that begins a head (the second coordinate zero): holding the three input blocks, it
    leaves the key and value blocks, each narrowed, in the two scratch buffers and the attended block in the
    output's buffer. -/
theorem run_first (c : Dev nD) (i : grid0.Coords)
    (arg2 : Memref sig .tc .vmem S1x64x1024 .f32) (harg2 : arg2.IsWhole) (arg3 : Memref sig .tc .vmem S1x64x2048 .f32) (harg3 : arg3.IsWhole)
    (arg4 : Memref sig .tc .vmem S1x64x2048 .f32) (harg4 : arg4.IsWhole) (arg5 : Memref sig .tc .vmem S1x64x1024 .f32) (harg5 : arg5.IsWhole)
    (arg6 : Memref sig .tc .vmem S64x2048 .bf16) (harg6 : arg6.IsWhole) (arg7 : Memref sig .tc .vmem S64x2048 .bf16) (harg7 : arg7.IsWhole)
    (hc : cond0 i) (xq : Vec F S1x64x1024 .f32) (xk xv : Vec F S1x64x2048 .f32) (E : Set ℕ) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare xq ∗ owns (c : Thread nD τ) arg3 fullShare xk ∗ owns (c : Thread nD τ) arg4 fullShare xv
            ∗ owns (c : Thread nD τ) arg5 fullShare (k0_pay3 xq (k0_pay1 xk) (k0_pay2 xv))
            ∗ owns (c : Thread nD τ) arg6 fullShare (k0_pay1 xk) ∗ owns (c : Thread nD τ) arg7 fullShare (k0_pay2 xv)) -∗ K ⟨⟩))
      ⊢ wp frame (wpE (defs₀ (F := F)) Variants.none c none) E (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec (disch := exact hc)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [WholeStores.read_writes_whole_last arg5.view f5 hz3 _ _ [], WholeStores.readCov_whole_last arg6.view hz2 _ _ [],
      WholeStores.readCov_whole_last arg7.view hz2 _ _ [], WholeStores.readAt_whole_unread harg2 hz3,
      WholeStores.readAt_whole_unread harg3 hz3, WholeStores.readAt_whole_unread harg4 hz3]
  isplitl [H6]
  · iexists _; isplitr
    swap; · iexact H6
    ipureintro
    sl_unfold_words
    rw [WholeStores.read_writes_whole_last arg6.view f6 hz2 _ _ [], WholeStores.readAt_whole_unread harg3 hz3]
  · iexists _; isplitr
    swap; · iexact H7
    ipureintro
    sl_unfold_words
    rw [WholeStores.read_writes_whole_last arg7.view f7 hz2 _ _ [], WholeStores.readAt_whole_unread harg4 hz3]

/-- The body at a later point of a head: holding the query block and the scratch buffers at what the head's
    first point left, it leaves the attended block in the output's buffer and the scratch buffers as they were. -/
theorem run_second (c : Dev nD) (i : grid0.Coords)
    (arg2 : Memref sig .tc .vmem S1x64x1024 .f32) (harg2 : arg2.IsWhole) (arg3 : Memref sig .tc .vmem S1x64x2048 .f32) (harg3 : arg3.IsWhole)
    (arg4 : Memref sig .tc .vmem S1x64x2048 .f32) (harg4 : arg4.IsWhole) (arg5 : Memref sig .tc .vmem S1x64x1024 .f32) (harg5 : arg5.IsWhole)
    (arg6 : Memref sig .tc .vmem S64x2048 .bf16) (harg6 : arg6.IsWhole) (arg7 : Memref sig .tc .vmem S64x2048 .bf16) (harg7 : arg7.IsWhole)
    (hc : ¬cond0 i) (xq : Vec F S1x64x1024 .f32) (yk yv : Vec F S64x2048 .bf16) (E : Set ℕ) (K : PUnit → sProp 𝕄) :
    iprop(owns (c : Thread nD τ) arg2 fullShare xq
        ∗ (∃ d, owns (c : Thread nD τ) arg5 fullShare d) ∗ owns (c : Thread nD τ) arg6 fullShare yk ∗ owns (c : Thread nD τ) arg7 fullShare yv
        ∗ (iprop(owns (c : Thread nD τ) arg2 fullShare xq
            ∗ owns (c : Thread nD τ) arg5 fullShare (k0_pay3 xq yk yv)
            ∗ owns (c : Thread nD τ) arg6 fullShare yk ∗ owns (c : Thread nD τ) arg7 fullShare yv) -∗ K ⟨⟩))
      ⊢ wp frame (wpE (defs₀ (F := F)) Variants.none c none) E (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f2, %hf2, H2⟩, ⟨%d5, %f5, -, H5⟩, ⟨%f6, %hf6, H6⟩, ⟨%f7, %hf7, H7⟩, Hk⟩
  obtain rfl := harg2.eq_unread hf2; obtain rfl := harg6.eq_unread hf6; obtain rfl := harg7.eq_unread hf7
  sl_exec (disch := exact hc)
  sl_step
  iapply Hk
  isplitl [H2]
  · iexists _; isplitr; · ipureintro; exact hf2
    iexact H2
  isplitl [H5]
  · iexists _; isplitr
    swap; · iexact H5
    ipureintro
    sl_unfold_words
    rw [WholeStores.read_writes_whole_last arg5.view f5 hz3 _ _ [], WholeStores.readAt_whole_unread harg2 hz3,
      WholeStores.readAt_whole_unread harg6 hz2, WholeStores.readAt_whole_unread harg7 hz2]
  isplitl [H6]
  · iexists _; isplitr; · ipureintro; exact hf6
    iexact H6
  · iexists _; isplitr; · ipureintro; exact hf7
    iexact H7

end Cert.Kernel.Hand

end
-- ==== Proof.KFrame.lean ====
import proofs.«163904_j31181462569018_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the two reshapes before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two reshapes, the region, and two more reshapes: it reduces to the region continued by the
    later two, at the contents the earlier two leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point that begins the head of point `t`: the even point at or just below it. -/
def headPt (t : Fin cfg0.N) : Fin cfg0.N := ⟨t.val - t.val % 2, lt_of_le_of_lt (Nat.sub_le _ _) t.isLt⟩

theorem headPt_even (t : Fin cfg0.N) (h : t.val % 2 = 0) : headPt t = t := Fin.ext (by unfold headPt; simp only; omega)
theorem headPt_odd (t : Fin cfg0.N) (h : ¬t.val % 2 = 0) :
    headPt t = headPt ⟨t.val - 1, lt_of_le_of_lt (Nat.sub_le _ _) t.isLt⟩ := Fin.ext (by unfold headPt; simp only; omega)

/-- What the two scratch buffers hold after point `t`: the head's key block and value block, narrowed. -/
def kscr (c : Dev nD) (t : Fin cfg0.N) : Vec F S64x2048 .bf16 := k0_pay1 (iblk m c 1 (headPt t))
def vscr (c : Dev nD) (t : Fin cfg0.N) : Vec F S64x2048 .bf16 := k0_pay2 (iblk m c 2 (headPt t))
/-- What the output's buffer holds after point `t`: the attended block of the point's queries. -/
def outAt (c : Dev nD) (t : Fin cfg0.N) : Vec F S1x64x1024 .f32 := k0_pay3 (iblk m c 0 t) (kscr m c t) (vscr m c t)

/-- The two scratch operands as memrefs. -/
abbrev scM0 : Memref sig .tc .vmem S64x2048 .bf16 := Memref.whole cc0_scratch0
abbrev scM1 : Memref sig .tc .vmem S64x2048 .bf16 := Memref.whole cc0_scratch1

/-- Each window's current staging memref at point `t`, and its wholeness. -/
abbrev ms0 (t : Fin cfg0.N) : Memref sig .tc .vmem S1x64x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x1024 .f32 := win0_3.stage (cfg0.slots t 3)
abbrev hs3 (t : Fin cfg0.N) : (ms3 t).IsWhole := hstage0_3 ((cfg0.slots t 3).cast nbuf0_3)

/-- The region's own buffers that no window stages are the two scratch buffers. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position `n`: before the first point the scratch buffers hold anything; afterwards what
    the point before left in them. -/
def PhiS (c : Dev nD) : (n : ℕ) → n ≤ cfg0.N → sProp 𝕄
  | 0, _ => Pipeline.ΦA spec0 c
  | n + 1, hn => iprop(iprop(owns (c : Thread nD τ) scM0 fullShare (kscr m c ⟨n, hn⟩) ∗ owns (c : Thread nD τ) scM1 fullShare (vscr m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (kscr m c ⟨n, hn⟩) ∗ owns (c : Thread nD τ) scM1 fullShare (vscr m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0 fullShare (kscr m c ⟨n - 1, by omega⟩) ∗ owns (c : Thread nD τ) scM1 fullShare (vscr m c ⟨n - 1, by omega⟩)) ∗ (∃ r, prngReg c r)) := by
  cases n with
  | zero => exact absurd rfl hz
  | succ n => rfl

/-! ## The proof data -/

/-- The arrays as the region finds them; after the body each input's buffer at its block and the output's at the
    attended block; the invariant above; nothing owed; the three input windows, which read one array, hold it at
    three shares that make the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: at an even point the head's first case applies to the three input blocks; at an odd
    point the later case applies to the query block and to what the point before left in the scratch buffers,
    which is what this point is to leave there (the head has not changed). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, after0, after1, after2, after3]
  rw [show (dats m 0 c).owesAt () t.succ = (dats m 0 c).owesAt () t.castSucc from rfl]
  rw [show (dats m 0 c).Φ t.succ = PhiS m c (t.val + 1) t.isLt from rfl, PhiS_succ]
  by_cases h0 : t.val % 2 = 0
  · unfold outAt kscr vscr
    rw [headPt_even t h0]
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩⟩
      iapply (run_first c (grid0.coords t) _ (hs0 t) _ (hs1 t) _ (hs2 t) _ (hs3 t) scM0 (Memref.isWhole_whole _) scM1 (Memref.isWhole_whole _)
        ((hcond0 t).mpr h0) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hg]
      · isplitl [HS0 HS1]
        · isplitl [HS0] <;> iassumption
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_first c (grid0.coords t) _ (hs0 t) _ (hs1 t) _ (hs2 t) _ (hs3 t) scM0 (Memref.isWhole_whole _) scM1 (Memref.isWhole_whole _)
        ((hcond0 t).mpr h0) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, H3, HS0, HS1⟩
      isplitl [HS0 HS1 Hg]
      · isplitl [HS0 HS1]
        · isplitl [HS0] <;> iassumption
        iexact Hg
      isplitl [Ho]; · iexact Ho
      isplitl [H0]; · iexact H0
      isplitl [H1]; · iexact H1
      isplitl [H2]; · iexact H2
      iexact H3
  · have hz : t.val ≠ 0 := fun h => h0 (by rw [h])
    unfold outAt
    rw [show kscr m c t = kscr m c ⟨t.val - 1, lt_of_le_of_lt (Nat.sub_le _ _) t.isLt⟩ from by unfold kscr; rw [headPt_odd t h0],
      show vscr m c t = vscr m c ⟨t.val - 1, lt_of_le_of_lt (Nat.sub_le _ _) t.isLt⟩ from by unfold vscr; rw [headPt_odd t h0]]
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply (run_second c (grid0.coords t) _ (hs0 t) (ms1 t) (hs1 t) (ms2 t) (hs2 t) _ (hs3 t) scM0 (Memref.isWhole_whole _) scM1 (Memref.isWhole_whole _)
      (fun h => h0 ((hcond0 t).mp h)) (iblk m c 0 t) _ _ Set.univ _)
    isplitl [H0]; · iexact H0
    isplitl [H3]; · iexists _; iexact H3
    isplitl [HS0]; · iexact HS0
    isplitl [HS1]; · iexact HS1
    iintro ⟨H0, H3, HS0, HS1⟩
    isplitl [HS0 HS1 Hg]
    · isplitl [HS0 HS1]
      · isplitl [HS0] <;> iassumption
      iexact Hg
    isplitl [Ho]; · iexact Ho
    isplitl [H0]; · iexact H0
    isplitl [H1]; · iexact H1
    isplitl [H2]; · iexact H2
    iexact H3

end Cert.Kernel.Hand

end
-- ==== Proof.KRun.lean ====
import proofs.«163904_j31181462569018_2_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HS0, HS1⟩, Hg⟩
  isplitl [HS0 HS1]
  · isplitl [HS0]
    · iexists _; iexact HS0
    · iexists _; iexact HS1
  iexact Hg

/-! ## The arrays: three windows on one array -/

/-- The pipeline's arrays, window by window: the merged input at three shares, the result whole. -/
theorem arrays_eq4 (c : Dev nD) (G : (w : Fin cfg0.W) → Buf (Elt F) ((cfg0.win w).arr.view.loc (c.tc : Thread nD τ))) :
    ((dats m 0 c).arrays G : sProp 𝕄)
      = iprop((((c.tc : Thread nD τ).loc main_v1) ↦{fullShare.left} G 0) ∗ (((c.tc : Thread nD τ).loc main_v1) ↦{fullShare.right.left} G 1)
          ∗ (((c.tc : Thread nD τ).loc main_v1) ↦{fullShare.right.right} G 2) ∗ (((c.tc : Thread nD τ).loc main_v2) ↦{fullShare} G 3)) := by
  unfold Dat.arrays
  rw [bigSep_W0, (arr_whole0 0).set_eq_univ, (arr_whole0 3).set_eq_univ]
  rfl

/-- The distinct buffers behind the windows' arrays are the merged input and the result. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v1) ↦{fullShare} W main_v1) ∗ (((c.tc : Thread nD τ).loc main_v2) ↦{fullShare} W main_v2)) := by
  unfold Pipeline.arrBufs
  exact bigSep_eq_bigSepL_of_eq [main_v1, main_v2] (by decide) (by decide) _

/-- At entry the merged input, whole, is dealt to the three windows that read it. -/
theorem hsplit (c : Dev nD) : (Pipeline.arrBufs spec0 c (V m c) : sProp 𝕄) ⊢ (dats m 0 c).arrays ((dats m 0 c).arrAt · 0) := by
  rw [arrays_eq4, arrBufs_eq]
  iintro ⟨H1, H2⟩
  ihave H1 := (pointsTo_share (PosShare.mem_left_op_right fullShare)).1 $$ H1
  icases H1 with ⟨Ha, Hb⟩
  ihave Hb := (pointsTo_share (PosShare.mem_left_op_right fullShare.right)).1 $$ Hb
  icases Hb with ⟨Hb, Hc⟩
  isplitl [Ha]; · iexact Ha
  isplitl [Hb]; · iexact Hb
  isplitl [Hc]; · iexact Hc
  iexact H2

/-! ## The lines after the region -/

/-- The buffers the two reshapes after the region touch. -/
abbrev tailSet : Finset (DevRef τ sig) := {Proc.devRef .tc main_v2, Proc.devRef .tc main_v3, Proc.devRef .tc main_v4}

/-- The contents at the region's exit: the result array as the pipeline leaves it, every other buffer as at entry; -/
def Wexit (c : Dev nD) : Valuation τ sig (Elt F) :=
  Function.update (V0 m c) (Proc.devRef .tc main_v2) ((dats m 0 c).arrAt 3 cfg0.N)
/-- and after the two reshapes. -/
abbrev Vend (c : Dev nD) : Valuation τ sig (Elt F) := StableHlo.after ([hostOps1].flatten) (Wexit m c)

theorem Wexit_v2 (c : Dev nD) : Wexit m c (Proc.devRef .tc main_v2) = (dats m 0 c).arrAt 3 cfg0.N := by
  unfold Wexit; exact Function.update_self _ _ _
theorem Wexit_ne (c : Dev nD) (b : Ref sig .tc) (h : b ≠ main_v2) : Wexit m c (Proc.devRef .tc b) = V m c b := by
  unfold Wexit; exact Function.update_of_ne (StableHlo.devRef_ne_of_ne h) _ _

/-- The reshapes do not write the result array. -/
theorem Vend_v2 (c : Dev nD) :
    StableHlo.after ([hostOps1].flatten) (Wexit m c) (Proc.devRef .tc main_v2) = (dats m 0 c).arrAt 3 cfg0.N := by
  rw [StableHlo.after_of_forall_not_mem (b := Proc.devRef .tc main_v2) _ _ (fun op hop => ?_), Wexit_v2]
  simp only [List.flatten_cons, List.flatten_nil, List.append_nil, hostOps1, List.mem_cons, List.mem_nil_iff, or_false] at hop
  rcases hop with rfl | rfl <;> simp only [StableHlo.reshape_writes, Finset.mem_singleton] <;>
    exact StableHlo.devRef_ne_of_ne (by decide)

/-- The reshapes before the region do not write the input. -/
theorem V_arg0 (c : Dev nD) : V m c main_arg0 = m ((c.tc : Thread nD τ).loc main_arg0) := by
  refine StableHlo.after_of_forall_not_mem (b := Proc.devRef .tc main_arg0) _ _ (fun op hop => ?_)
  simp only [List.flatten_cons, List.flatten_nil, List.append_nil, hostOps0, List.mem_cons, List.mem_nil_iff, or_false] at hop
  rcases hop with rfl | rfl <;> simp only [StableHlo.reshape_writes, Finset.mem_singleton] <;>
    exact StableHlo.devRef_ne_of_ne (by decide)

theorem held_tail (c : Dev nD) (W : Valuation τ sig (Elt F)) :
    (StableHlo.held (c.tc : Thread nD τ) tailSet W : sProp 𝕄)
      = iprop((((c.tc : Thread nD τ).loc main_v2) ↦{fullShare} W (Proc.devRef .tc main_v2))
          ∗ (((c.tc : Thread nD τ).loc main_v3) ↦{fullShare} W (Proc.devRef .tc main_v3))
          ∗ (((c.tc : Thread nD τ).loc main_v4) ↦{fullShare} W (Proc.devRef .tc main_v4))) := by
  unfold StableHlo.held tailSet
  rw [bigSep_insert (by decide), bigSep_insert (by decide), bigSep_singleton]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  rcases hops with rfl
  simp only [hostOps1, List.mem_cons, List.mem_nil_iff, or_false] at hop
  rcases hop with rfl | rfl <;> rw [StableHlo.reshape_bufs] <;> intro b hb <;>
    simp only [tailSet, Finset.mem_insert, Finset.mem_singleton] at hb ⊢ <;> tauto

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- What bypasses the region, after the two reshapes: the input and its first reshape as at entry, the two results
    of the reshapes. -/
def Zend (c : Dev nD) : sProp 𝕄 :=
  iprop((((c.tc : Thread nD τ).loc main_arg0) ↦{fullShare} V m c main_arg0) ∗ (((c.tc : Thread nD τ).loc main_v0) ↦{fullShare} V m c main_v0)
    ∗ (((c.tc : Thread nD τ).loc main_v3) ↦{fullShare} Vend m c (Proc.devRef .tc main_v3))
    ∗ (((c.tc : Thread nD τ).loc main_v4) ↦{fullShare} Vend m c (Proc.devRef .tc main_v4)))

/-! ## The run -/

set_option backward.isDefEq.respectTransparency.types false in
/-- From any memory with zero counters every weakly fair execution of the program terminates, and every final
    state has the reshaped result at what the two reshapes make of the pipeline's result array, and the input as
    it was. -/
theorem run_main : θ_run defs (onTc (τ := τ) (main (F := F))) (s₀ m ρ) (fun r => ∀ c : Dev nD,
      r.2.mem ((c.tc : Thread nD τ).loc main_v4) = Vend m c (Proc.devRef .tc main_v4)
      ∧ r.2.mem ((c.tc : Thread nD τ).loc main_arg0) = m ((c.tc : Thread nD τ).loc main_arg0)) := by
  classical
  exact Pipeline.θ_run_region_pf_tail (pcfgs (F := F)) (fun q => (cfgs q).toPCfg_adm) (dats m) () cellOf_inj 0 winFacts₀0
    (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zend m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [arrays_eq4, Pipeline.unscopedRestP_none, unscopedRest0_eq]
      iintro ⟨Hk, Hbd, ⟨Ha0, Ha1, Ha2, Ha3⟩, ⟨Harg, Hv0, Hv3, Hv4⟩⟩
      rw [← List.append_nil ([hostOps1].map StableHlo.seq)]
      iapply (Pipeline.wp_seqs_then (pcfgs (F := F)) defs₀ Variants.none c tailSet [] [hostOps1] tail_sub tail_fresh (Wexit m c)) $$ [Hbd Ha3 Hv3 Hv4]
      · rw [held_tail, Wexit_v2, Wexit_ne m c main_v3 (by decide), Wexit_ne m c main_v4 (by decide)]
        isplitl [Hbd]; · iexact Hbd
        isplitl [Ha3]; · iexact Ha3
        isplitl [Hv3]; · iexact Hv3
        iexact Hv4
      rw [Pipeline.chain_nil, wp_pure, held_tail, Vend_v2]
      iintro ⟨Hbd, H2, H3, H4⟩
      imodintro
      iapply Hk
      unfold Zend
      isplitl [Ha0 Ha1 Ha2 H2]
      · isplitl [Ha0]; · iexact Ha0
        isplitl [Ha1]; · iexact Ha1
        isplitl [Ha2]; · iexact Ha2
        iexact H2
      isplitl [Harg]; · iexact Harg
      isplitl [Hv0]; · iexact Hv0
      isplitl [H3]; · iexact H3
      iexact H4)
    (QY := fun c s => s.mem ((c.tc : Thread nD τ).loc main_v4) = Vend m c (Proc.devRef .tc main_v4)
      ∧ s.mem ((c.tc : Thread nD τ).loc main_arg0) = V m c main_arg0)
    (hY := fun c s' => by
      unfold Zend
      iintro ⟨-, ⟨Harg, -, -, H4⟩, HSI⟩
      icombine HSI H4 gives %h4
      icombine HSI Harg gives %h0
      imodintro
      isplitr; · ipureintro; exact ⟨Buf.eq_of_forall_mem_univ h4, Buf.eq_of_forall_mem_univ h0⟩
      iexact HSI)
    (hQ := fun s h c => ⟨(h c).2.2.1, (h c).2.2.2.trans (V_arg0 m c)⟩)

/-- info: 'Cert.Kernel.Hand.run_main' depends on axioms: [propext, Classical.choice, Quot.sound] -/
#guard_msgs in #print axioms run_main

end Cert.Kernel.Hand

end
-- ==== Proof.KIBody.lean ====
import proofs.«163904_j31181462569018_2_alg».proof.Proof.Gen.KernelIdeal.Launch
import proofs.«163904_j31181462569018_2_alg».proof.Proof.Gen.KernelIdeal.Skeleton
import proofs.«163904_j31181462569018_2_alg».proof.Proof.Gen.KernelIdeal.Points
import proofs.«163904_j31181462569018_2_alg».proof.Proof.LibWholeStores
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the second grid coordinate is zero (the point begins a head). -/
abbrev cond0 (i : grid0.Coords) : Prop :=
  (Scalar.cmpi .ne (Scalar.extui (Scalar.cmpi .eq (BitVec.ofNat 32 (i 1).val) 0#32)) 0#32) = 1#1

/-- Over the grid it holds at the even points. -/
theorem hcond0 : ∀ t : Fin cfg0.N, cond0 (grid0.coords t) ↔ t.val % 2 = 0 :=
  (by decide +kernel : ∀ t : Fin grid0.N, cond0 (grid0.coords t) ↔ t.val % 2 = 0)

theorem hz3 : (![0, 0, 0] : Fin 3 → Nat) = fun _ => 0 := by
  funext a; match a with | ⟨0, _⟩ => rfl | ⟨1, _⟩ => rfl | ⟨2, _⟩ => rfl
theorem hz2 : (![0, 0] : Fin 2 → Nat) = fun _ => 0 := by
  funext a; match a with | ⟨0, _⟩ => rfl | ⟨1, _⟩ => rfl

/-- The body at a point that begins a head (the second coordinate zero): holding the three input blocks, it
    leaves the key and value blocks, each narrowed, in the two scratch buffers and the attended block in the
    output's buffer. -/
theorem run_first (c : Dev nD) (i : grid0.Coords)
    (arg2 : Memref sig .tc .vmem S1x64x1024 .f32) (harg2 : arg2.IsWhole) (arg3 : Memref sig .tc .vmem S1x64x2048 .f32) (harg3 : arg3.IsWhole)
    (arg4 : Memref sig .tc .vmem S1x64x2048 .f32) (harg4 : arg4.IsWhole) (arg5 : Memref sig .tc .vmem S1x64x1024 .f32) (harg5 : arg5.IsWhole)
    (arg6 : Memref sig .tc .vmem S64x2048 .bf16) (harg6 : arg6.IsWhole) (arg7 : Memref sig .tc .vmem S64x2048 .bf16) (harg7 : arg7.IsWhole)
    (hc : cond0 i) (xq : Vec F S1x64x1024 .f32) (xk xv : Vec F S1x64x2048 .f32) (E : Set ℕ) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare xq ∗ owns (c : Thread nD τ) arg3 fullShare xk ∗ owns (c : Thread nD τ) arg4 fullShare xv
            ∗ owns (c : Thread nD τ) arg5 fullShare (k0_pay3 xq (k0_pay1 xk) (k0_pay2 xv))
            ∗ owns (c : Thread nD τ) arg6 fullShare (k0_pay1 xk) ∗ owns (c : Thread nD τ) arg7 fullShare (k0_pay2 xv)) -∗ K ⟨⟩))
      ⊢ wp frame (wpE (defs₀ (F := F)) Variants.none c none) E (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec (disch := exact hc)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [WholeStores.read_writes_whole_last arg5.view f5 hz3 _ _ [], WholeStores.readCov_whole_last arg6.view hz2 _ _ [],
      WholeStores.readCov_whole_last arg7.view hz2 _ _ [], WholeStores.readAt_whole_unread harg2 hz3,
      WholeStores.readAt_whole_unread harg3 hz3, WholeStores.readAt_whole_unread harg4 hz3]
  isplitl [H6]
  · iexists _; isplitr
    swap; · iexact H6
    ipureintro
    sl_unfold_words
    rw [WholeStores.read_writes_whole_last arg6.view f6 hz2 _ _ [], WholeStores.readAt_whole_unread harg3 hz3]
  · iexists _; isplitr
    swap; · iexact H7
    ipureintro
    sl_unfold_words
    rw [WholeStores.read_writes_whole_last arg7.view f7 hz2 _ _ [], WholeStores.readAt_whole_unread harg4 hz3]

/-- The body at a later point of a head: holding the query block and the scratch buffers at what the head's
    first point left, it leaves the attended block in the output's buffer and the scratch buffers as they were. -/
theorem run_second (c : Dev nD) (i : grid0.Coords)
    (arg2 : Memref sig .tc .vmem S1x64x1024 .f32) (harg2 : arg2.IsWhole) (arg3 : Memref sig .tc .vmem S1x64x2048 .f32) (harg3 : arg3.IsWhole)
    (arg4 : Memref sig .tc .vmem S1x64x2048 .f32) (harg4 : arg4.IsWhole) (arg5 : Memref sig .tc .vmem S1x64x1024 .f32) (harg5 : arg5.IsWhole)
    (arg6 : Memref sig .tc .vmem S64x2048 .bf16) (harg6 : arg6.IsWhole) (arg7 : Memref sig .tc .vmem S64x2048 .bf16) (harg7 : arg7.IsWhole)
    (hc : ¬cond0 i) (xq : Vec F S1x64x1024 .f32) (yk yv : Vec F S64x2048 .bf16) (E : Set ℕ) (K : PUnit → sProp 𝕄) :
    iprop(owns (c : Thread nD τ) arg2 fullShare xq
        ∗ (∃ d, owns (c : Thread nD τ) arg5 fullShare d) ∗ owns (c : Thread nD τ) arg6 fullShare yk ∗ owns (c : Thread nD τ) arg7 fullShare yv
        ∗ (iprop(owns (c : Thread nD τ) arg2 fullShare xq
            ∗ owns (c : Thread nD τ) arg5 fullShare (k0_pay3 xq yk yv)
            ∗ owns (c : Thread nD τ) arg6 fullShare yk ∗ owns (c : Thread nD τ) arg7 fullShare yv) -∗ K ⟨⟩))
      ⊢ wp frame (wpE (defs₀ (F := F)) Variants.none c none) E (cc0__attn_kernel i arg2 harg2 arg3 harg3 arg4 harg4 arg5 harg5 arg6 harg6 arg7 harg7) K := by
  simp only [cc0__attn_kernel_eq_skeleton]; unfold cc0__attn_kernel_skel
  unfold owns
  iintro ⟨⟨%f2, %hf2, H2⟩, ⟨%d5, %f5, -, H5⟩, ⟨%f6, %hf6, H6⟩, ⟨%f7, %hf7, H7⟩, Hk⟩
  obtain rfl := harg2.eq_unread hf2; obtain rfl := harg6.eq_unread hf6; obtain rfl := harg7.eq_unread hf7
  sl_exec (disch := exact hc)
  sl_step
  iapply Hk
  isplitl [H2]
  · iexists _; isplitr; · ipureintro; exact hf2
    iexact H2
  isplitl [H5]
  · iexists _; isplitr
    swap; · iexact H5
    ipureintro
    sl_unfold_words
    rw [WholeStores.read_writes_whole_last arg5.view f5 hz3 _ _ [], WholeStores.readAt_whole_unread harg2 hz3,
      WholeStores.readAt_whole_unread harg6 hz2, WholeStores.readAt_whole_unread harg7 hz2]
  isplitl [H6]
  · iexists _; isplitr; · ipureintro; exact hf6
    iexact H6
  · iexists _; isplitr; · ipureintro; exact hf7
    iexact H7

end Cert.KernelIdeal.Hand

end
-- ==== Proof.KIFrame.lean ====
import proofs.«163904_j31181462569018_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the two reshapes before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two reshapes, the region, and two more reshapes: it reduces to the region continued by the
    later two, at the contents the earlier two leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point that begins the head of point `t`: the even point at or just below it. -/
def headPt (t : Fin cfg0.N) : Fin cfg0.N := ⟨t.val - t.val % 2, lt_of_le_of_lt (Nat.sub_le _ _) t.isLt⟩

theorem headPt_even (t : Fin cfg0.N) (h : t.val % 2 = 0) : headPt t = t := Fin.ext (by unfold headPt; simp only; omega)
theorem headPt_odd (t : Fin cfg0.N) (h : ¬t.val % 2 = 0) :
    headPt t = headPt ⟨t.val - 1, lt_of_le_of_lt (Nat.sub_le _ _) t.isLt⟩ := Fin.ext (by unfold headPt; simp only; omega)

/-- What the two scratch buffers hold after point `t`: the head's key block and value block, narrowed. -/
def kscr (c : Dev nD) (t : Fin cfg0.N) : Vec F S64x2048 .bf16 := k0_pay1 (iblk m c 1 (headPt t))
def vscr (c : Dev nD) (t : Fin cfg0.N) : Vec F S64x2048 .bf16 := k0_pay2 (iblk m c 2 (headPt t))
/-- What the output's buffer holds after point `t`: the attended block of the point's queries. -/
def outAt (c : Dev nD) (t : Fin cfg0.N) : Vec F S1x64x1024 .f32 := k0_pay3 (iblk m c 0 t) (kscr m c t) (vscr m c t)

/-- The two scratch operands as memrefs. -/
abbrev scM0 : Memref sig .tc .vmem S64x2048 .bf16 := Memref.whole cc0_scratch0
abbrev scM1 : Memref sig .tc .vmem S64x2048 .bf16 := Memref.whole cc0_scratch1

/-- Each window's current staging memref at point `t`, and its wholeness. -/
abbrev ms0 (t : Fin cfg0.N) : Memref sig .tc .vmem S1x64x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64x1024 .f32 := win0_3.stage (cfg0.slots t 3)
abbrev hs3 (t : Fin cfg0.N) : (ms3 t).IsWhole := hstage0_3 ((cfg0.slots t 3).cast nbuf0_3)

/-- The region's own buffers that no window stages are the two scratch buffers. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position `n`: before the first point the scratch buffers hold anything; afterwards what
    the point before left in them. -/
def PhiS (c : Dev nD) : (n : ℕ) → n ≤ cfg0.N → sProp 𝕄
  | 0, _ => Pipeline.ΦA spec0 c
  | n + 1, hn => iprop(iprop(owns (c : Thread nD τ) scM0 fullShare (kscr m c ⟨n, hn⟩) ∗ owns (c : Thread nD τ) scM1 fullShare (vscr m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (kscr m c ⟨n, hn⟩) ∗ owns (c : Thread nD τ) scM1 fullShare (vscr m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0 fullShare (kscr m c ⟨n - 1, by omega⟩) ∗ owns (c : Thread nD τ) scM1 fullShare (vscr m c ⟨n - 1, by omega⟩)) ∗ (∃ r, prngReg c r)) := by
  cases n with
  | zero => exact absurd rfl hz
  | succ n => rfl

/-! ## The proof data -/

/-- The arrays as the region finds them; after the body each input's buffer at its block and the output's at the
    attended block; the invariant above; nothing owed; the three input windows, which read one array, hold it at
    three shares that make the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: at an even point the head's first case applies to the three input blocks; at an odd
    point the later case applies to the query block and to what the point before left in the scratch buffers,
    which is what this point is to leave there (the head has not changed). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, after0, after1, after2, after3]
  rw [show (dats m 0 c).owesAt () t.succ = (dats m 0 c).owesAt () t.castSucc from rfl]
  rw [show (dats m 0 c).Φ t.succ = PhiS m c (t.val + 1) t.isLt from rfl, PhiS_succ]
  by_cases h0 : t.val % 2 = 0
  · unfold outAt kscr vscr
    rw [headPt_even t h0]
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩⟩
      iapply (run_first c (grid0.coords t) _ (hs0 t) _ (hs1 t) _ (hs2 t) _ (hs3 t) scM0 (Memref.isWhole_whole _) scM1 (Memref.isWhole_whole _)
        ((hcond0 t).mpr h0) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hg]
      · isplitl [HS0 HS1]
        · isplitl [HS0] <;> iassumption
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_first c (grid0.coords t) _ (hs0 t) _ (hs1 t) _ (hs2 t) _ (hs3 t) scM0 (Memref.isWhole_whole _) scM1 (Memref.isWhole_whole _)
        ((hcond0 t).mpr h0) (iblk m c 0 t) (iblk m c 1 t) (iblk m c 2 t) Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, H3, HS0, HS1⟩
      isplitl [HS0 HS1 Hg]
      · isplitl [HS0 HS1]
        · isplitl [HS0] <;> iassumption
        iexact Hg
      isplitl [Ho]; · iexact Ho
      isplitl [H0]; · iexact H0
      isplitl [H1]; · iexact H1
      isplitl [H2]; · iexact H2
      iexact H3
  · have hz : t.val ≠ 0 := fun h => h0 (by rw [h])
    unfold outAt
    rw [show kscr m c t = kscr m c ⟨t.val - 1, lt_of_le_of_lt (Nat.sub_le _ _) t.isLt⟩ from by unfold kscr; rw [headPt_odd t h0],
      show vscr m c t = vscr m c ⟨t.val - 1, lt_of_le_of_lt (Nat.sub_le _ _) t.isLt⟩ from by unfold vscr; rw [headPt_odd t h0]]
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply (run_second c (grid0.coords t) _ (hs0 t) (ms1 t) (hs1 t) (ms2 t) (hs2 t) _ (hs3 t) scM0 (Memref.isWhole_whole _) scM1 (Memref.isWhole_whole _)
      (fun h => h0 ((hcond0 t).mp h)) (iblk m c 0 t) _ _ Set.univ _)
    isplitl [H0]; · iexact H0
    isplitl [H3]; · iexists _; iexact H3
    isplitl [HS0]; · iexact HS0
    isplitl [HS1]; · iexact HS1
    iintro ⟨H0, H3, HS0, HS1⟩
    isplitl [HS0 HS1 Hg]
    · isplitl [HS0 HS1]
      · isplitl [HS0] <;> iassumption
      iexact Hg
    isplitl [Ho]; · iexact Ho
    isplitl [H0]; · iexact H0
    isplitl [H1]; · iexact H1
    isplitl [H2]; · iexact H2
    iexact H3

end Cert.KernelIdeal.Hand

end
-- ==== Proof.KIRun.lean ====
import proofs.«163904_j31181462569018_2_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HS0, HS1⟩, Hg⟩
  isplitl [HS0 HS1]
  · isplitl [HS0]
    · iexists _; iexact HS0
    · iexists _; iexact HS1
  iexact Hg

/-! ## The arrays: three windows on one array -/

/-- The pipeline's arrays, window by window: the merged input at three shares, the result whole. -/
theorem arrays_eq4 (c : Dev nD) (G : (w : Fin cfg0.W) → Buf (Elt F) ((cfg0.win w).arr.view.loc (c.tc : Thread nD τ))) :
    ((dats m 0 c).arrays G : sProp 𝕄)
      = iprop((((c.tc : Thread nD τ).loc main_v1) ↦{fullShare.left} G 0) ∗ (((c.tc : Thread nD τ).loc main_v1) ↦{fullShare.right.left} G 1)
          ∗ (((c.tc : Thread nD τ).loc main_v1) ↦{fullShare.right.right} G 2) ∗ (((c.tc : Thread nD τ).loc main_v2) ↦{fullShare} G 3)) := by
  unfold Dat.arrays
  rw [bigSep_W0, (arr_whole0 0).set_eq_univ, (arr_whole0 3).set_eq_univ]
  rfl

/-- The distinct buffers behind the windows' arrays are the merged input and the result. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v1) ↦{fullShare} W main_v1) ∗ (((c.tc : Thread nD τ).loc main_v2) ↦{fullShare} W main_v2)) := by
  unfold Pipeline.arrBufs
  exact bigSep_eq_bigSepL_of_eq [main_v1, main_v2] (by decide) (by decide) _

/-- At entry the merged input, whole, is dealt to the three windows that read it. -/
theorem hsplit (c : Dev nD) : (Pipeline.arrBufs spec0 c (V m c) : sProp 𝕄) ⊢ (dats m 0 c).arrays ((dats m 0 c).arrAt · 0) := by
  rw [arrays_eq4, arrBufs_eq]
  iintro ⟨H1, H2⟩
  ihave H1 := (pointsTo_share (PosShare.mem_left_op_right fullShare)).1 $$ H1
  icases H1 with ⟨Ha, Hb⟩
  ihave Hb := (pointsTo_share (PosShare.mem_left_op_right fullShare.right)).1 $$ Hb
  icases Hb with ⟨Hb, Hc⟩
  isplitl [Ha]; · iexact Ha
  isplitl [Hb]; · iexact Hb
  isplitl [Hc]; · iexact Hc
  iexact H2

/-! ## The lines after the region -/

/-- The buffers the two reshapes after the region touch. -/
abbrev tailSet : Finset (DevRef τ sig) := {Proc.devRef .tc main_v2, Proc.devRef .tc main_v3, Proc.devRef .tc main_v4}

/-- The contents at the region's exit: the result array as the pipeline leaves it, every other buffer as at entry; -/
def Wexit (c : Dev nD) : Valuation τ sig (Elt F) :=
  Function.update (V0 m c) (Proc.devRef .tc main_v2) ((dats m 0 c).arrAt 3 cfg0.N)
/-- and after the two reshapes. -/
abbrev Vend (c : Dev nD) : Valuation τ sig (Elt F) := StableHlo.after ([hostOps1].flatten) (Wexit m c)

theorem Wexit_v2 (c : Dev nD) : Wexit m c (Proc.devRef .tc main_v2) = (dats m 0 c).arrAt 3 cfg0.N := by
  unfold Wexit; exact Function.update_self _ _ _
theorem Wexit_ne (c : Dev nD) (b : Ref sig .tc) (h : b ≠ main_v2) : Wexit m c (Proc.devRef .tc b) = V m c b := by
  unfold Wexit; exact Function.update_of_ne (StableHlo.devRef_ne_of_ne h) _ _

/-- The reshapes do not write the result array. -/
theorem Vend_v2 (c : Dev nD) :
    StableHlo.after ([hostOps1].flatten) (Wexit m c) (Proc.devRef .tc main_v2) = (dats m 0 c).arrAt 3 cfg0.N := by
  rw [StableHlo.after_of_forall_not_mem (b := Proc.devRef .tc main_v2) _ _ (fun op hop => ?_), Wexit_v2]
  simp only [List.flatten_cons, List.flatten_nil, List.append_nil, hostOps1, List.mem_cons, List.mem_nil_iff, or_false] at hop
  rcases hop with rfl | rfl <;> simp only [StableHlo.reshape_writes, Finset.mem_singleton] <;>
    exact StableHlo.devRef_ne_of_ne (by decide)

/-- The reshapes before the region do not write the input. -/
theorem V_arg0 (c : Dev nD) : V m c main_arg0 = m ((c.tc : Thread nD τ).loc main_arg0) := by
  refine StableHlo.after_of_forall_not_mem (b := Proc.devRef .tc main_arg0) _ _ (fun op hop => ?_)
  simp only [List.flatten_cons, List.flatten_nil, List.append_nil, hostOps0, List.mem_cons, List.mem_nil_iff, or_false] at hop
  rcases hop with rfl | rfl <;> simp only [StableHlo.reshape_writes, Finset.mem_singleton] <;>
    exact StableHlo.devRef_ne_of_ne (by decide)

theorem held_tail (c : Dev nD) (W : Valuation τ sig (Elt F)) :
    (StableHlo.held (c.tc : Thread nD τ) tailSet W : sProp 𝕄)
      = iprop((((c.tc : Thread nD τ).loc main_v2) ↦{fullShare} W (Proc.devRef .tc main_v2))
          ∗ (((c.tc : Thread nD τ).loc main_v3) ↦{fullShare} W (Proc.devRef .tc main_v3))
          ∗ (((c.tc : Thread nD τ).loc main_v4) ↦{fullShare} W (Proc.devRef .tc main_v4))) := by
  unfold StableHlo.held tailSet
  rw [bigSep_insert (by decide), bigSep_insert (by decide), bigSep_singleton]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  rcases hops with rfl
  simp only [hostOps1, List.mem_cons, List.mem_nil_iff, or_false] at hop
  rcases hop with rfl | rfl <;> rw [StableHlo.reshape_bufs] <;> intro b hb <;>
    simp only [tailSet, Finset.mem_insert, Finset.mem_singleton] at hb ⊢ <;> tauto

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- What bypasses the region, after the two reshapes: the input and its first reshape as at entry, the two results
    of the reshapes. -/
def Zend (c : Dev nD) : sProp 𝕄 :=
  iprop((((c.tc : Thread nD τ).loc main_arg0) ↦{fullShare} V m c main_arg0) ∗ (((c.tc : Thread nD τ).loc main_v0) ↦{fullShare} V m c main_v0)
    ∗ (((c.tc : Thread nD τ).loc main_v3) ↦{fullShare} Vend m c (Proc.devRef .tc main_v3))
    ∗ (((c.tc : Thread nD τ).loc main_v4) ↦{fullShare} Vend m c (Proc.devRef .tc main_v4)))

/-! ## The run -/

set_option backward.isDefEq.respectTransparency.types false in
/-- From any memory with zero counters every weakly fair execution of the program terminates, and every final
    state has the reshaped result at what the two reshapes make of the pipeline's result array, and the input as
    it was. -/
theorem run_main : θ_run defs (onTc (τ := τ) (main (F := F))) (s₀ m ρ) (fun r => ∀ c : Dev nD,
      r.2.mem ((c.tc : Thread nD τ).loc main_v4) = Vend m c (Proc.devRef .tc main_v4)
      ∧ r.2.mem ((c.tc : Thread nD τ).loc main_arg0) = m ((c.tc : Thread nD τ).loc main_arg0)) := by
  classical
  exact Pipeline.θ_run_region_pf_tail (pcfgs (F := F)) (fun q => (cfgs q).toPCfg_adm) (dats m) () cellOf_inj 0 winFacts₀0
    (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zend m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [arrays_eq4, Pipeline.unscopedRestP_none, unscopedRest0_eq]
      iintro ⟨Hk, Hbd, ⟨Ha0, Ha1, Ha2, Ha3⟩, ⟨Harg, Hv0, Hv3, Hv4⟩⟩
      rw [← List.append_nil ([hostOps1].map StableHlo.seq)]
      iapply (Pipeline.wp_seqs_then (pcfgs (F := F)) defs₀ Variants.none c tailSet [] [hostOps1] tail_sub tail_fresh (Wexit m c)) $$ [Hbd Ha3 Hv3 Hv4]
      · rw [held_tail, Wexit_v2, Wexit_ne m c main_v3 (by decide), Wexit_ne m c main_v4 (by decide)]
        isplitl [Hbd]; · iexact Hbd
        isplitl [Ha3]; · iexact Ha3
        isplitl [Hv3]; · iexact Hv3
        iexact Hv4
      rw [Pipeline.chain_nil, wp_pure, held_tail, Vend_v2]
      iintro ⟨Hbd, H2, H3, H4⟩
      imodintro
      iapply Hk
      unfold Zend
      isplitl [Ha0 Ha1 Ha2 H2]
      · isplitl [Ha0]; · iexact Ha0
        isplitl [Ha1]; · iexact Ha1
        isplitl [Ha2]; · iexact Ha2
        iexact H2
      isplitl [Harg]; · iexact Harg
      isplitl [Hv0]; · iexact Hv0
      isplitl [H3]; · iexact H3
      iexact H4)
    (QY := fun c s => s.mem ((c.tc : Thread nD τ).loc main_v4) = Vend m c (Proc.devRef .tc main_v4)
      ∧ s.mem ((c.tc : Thread nD τ).loc main_arg0) = V m c main_arg0)
    (hY := fun c s' => by
      unfold Zend
      iintro ⟨-, ⟨Harg, -, -, H4⟩, HSI⟩
      icombine HSI H4 gives %h4
      icombine HSI Harg gives %h0
      imodintro
      isplitr; · ipureintro; exact ⟨Buf.eq_of_forall_mem_univ h4, Buf.eq_of_forall_mem_univ h0⟩
      iexact HSI)
    (hQ := fun s h c => ⟨(h c).2.2.1, (h c).2.2.2.trans (V_arg0 m c)⟩)

/-- info: 'Cert.KernelIdeal.Hand.run_main' depends on axioms: [propext, Classical.choice, Quot.sound] -/
#guard_msgs in #print axioms run_main

end Cert.KernelIdeal.Hand

end
-- ==== Proof.AttnSpec.lean ====
/-
  Softmax attention of one query column over the extended reals, and the result array of the 64 heads.

  A head holds 64 features and 2048 positions.  For a query column `qt` (its 64 features), keys `k` and
  values `v` (64 × 2048 each) the score of position `s` is `∑ c, (qt c · 1/8) · k c s`; the weights are
  `exp (score − max) / ∑ exp (score − max)`, the maximum taken from `-∞` over all positions; feature `c` of
  the attended value is `∑ s, v c s · weight s`.  The input array is [4, 3072, 2048]: for batch entry `b`
  its 3072 rows are (slot, head, feature) with slot 0 the queries, 1 the keys, 2 the values; the result
  array is [4, 1024, 2048] with rows (head, feature) and columns the query positions.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The factor a query is scaled by: the float word of 1/8. -/
def qscale : EReal := Ideal.ofBits .f32 0x3E000000#32
/-- The float word of `-∞`, where the running maximum starts. -/
def ninf : EReal := Ideal.ofBits .f32 0xFF800000#32

section Head

variable (qt : Fin 64 → EReal) (k v : Fin 64 → Fin 2048 → EReal)

/-- The score of position `s` against the query column. -/
def score (s : Fin 2048) : EReal := ∑ c : Fin 64, (qt c * qscale) * k c s
/-- The largest score, from `-∞`. -/
def rowMax : EReal := (Finset.univ : Finset (Fin 2048)).fold max ninf (fun s => score qt k s)
/-- The unnormalised weight of position `s`. -/
def expo (s : Fin 2048) : EReal := Ideal.exp (score qt k s - rowMax qt k)
/-- The normaliser. -/
def denom : EReal := ∑ s : Fin 2048, expo qt k s
/-- The softmax weight of position `s`. -/
def weight (s : Fin 2048) : EReal := Ideal.div (expo qt k s) (denom qt k)
/-- Feature `c` of the attended value. -/
def attend (c : Fin 64) : EReal := ∑ s : Fin 2048, v c s * weight qt k s

end Head

/-- The input array's shape and the result's. -/
abbrev SIn : Shape := ⟨3, ![4, 3072, 2048]⟩
abbrev SOut : Shape := ⟨3, ![4, 1024, 2048]⟩

/-- The input row of slot `j` (0 queries, 1 keys, 2 values), head `h`, feature `c`. -/
def row (j : Fin 3) (h : Fin 16) (c : Fin 64) : Fin 3072 := ⟨j.val * 1024 + h.val * 64 + c.val, by omega⟩

/-- Slot `j` of head `h` of batch entry `b`, as a 64 × 2048 matrix. -/
def slot (x : SIn.Idx → EReal) (b : Fin 4) (j : Fin 3) (h : Fin 16) : Fin 64 → Fin 2048 → EReal :=
  fun c t => x (ix3 b (row j h c) t)

/-- The result at batch entry `b`, head `h`, feature `c`, query position `t`. -/
def resultAt (x : SIn.Idx → EReal) (b : Fin 4) (h : Fin 16) (c : Fin 64) (t : Fin 2048) : EReal :=
  attend (fun c' => slot x b 0 h c' t) (slot x b 1 h) (slot x b 2 h) c

/-- The result at row `r` = (head, feature). -/
def resultRow (x : SIn.Idx → EReal) (b : Fin 4) (r : Fin 1024) (t : Fin 2048) : EReal :=
  resultAt x b ⟨r.val / 64, by omega⟩ ⟨r.val % 64, by omega⟩ t

/-- The whole result array. -/
def result (x : SIn.Idx → EReal) : SOut.Idx → EReal := fun i => resultRow x (i 0) (i 1) (i 2)

theorem result_ix3 (x : SIn.Idx → EReal) (b : Fin 4) (r : Fin 1024) (t : Fin 2048) :
    result x (ix3 b r t) = resultRow x b r t := rfl

end Cert.Attn

end
-- ==== Proof.BodyValue.lean ====
/-
  The kernel body's arithmetic read at one element, over the extended reals.

  One run of the body handles one (batch, head): a query block of 64 features × 1024 positions and the head's key and
  value blocks of 64 features × 2048 positions. The block it stores is softmax attention: the queries are scaled by 1/8;
  the score of query position t against key position s is the sum over the 64 features of scaled query times key; each
  row of scores has its maximum (taken from -∞) subtracted and is exponentiated; each row of exponentials is divided by
  its sum; feature c of the result at query position t is the sum over the 2048 key positions of value times weight.
  Over the extended reals the narrowings to sixteen bits are the identity, a contraction into the zero splat is the
  plain sum of products, and the two lane reductions are the fold of max and the sum over the row, so the stored
  block at (0, c, t) is the specification's attended value of query column t (theorem pay3_apply).

  The file first reads each operation that is not elementwise at explicit coordinates — the two contractions, the two
  row reductions, the cast of a vector to a one-column matrix and the spreading of that column over the row —, then
  names the body's four stages and composes them.
-/
import proofs.«163904_j31181462569018_2_alg».proof.Proof.Gen.KernelIdeal.Skeleton
import proofs.«163904_j31181462569018_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## The two contractions at an element -/

/-- Queries against keys, the left operand's kept axis: its coordinate is the result's row. -/
theorem scores_lhs_kept (i : S1024x2048.Idx) (q : dot_S64x1024_S64x2048_S1024x2048_0_0_1_1_n_n.contr.Idx) :
    (dot_S64x1024_S64x2048_S1024x2048_0_0_1_1_n_n.lhsIdx i q 1).val = (i 0).val := by
  unfold DotDims.lhsIdx
  rw [dif_neg (show ¬(1 : Fin S64x1024.rank) ∈ dot_S64x1024_S64x2048_S1024x2048_0_0_1_1_n_n.lhsBatch by decide),
    dif_pos (show (1 : Fin S64x1024.rank) ∈ dot_S64x1024_S64x2048_S1024x2048_0_0_1_1_n_n.lhsNonContracting by decide)]
  rfl
/-- Queries against keys, the right operand's kept axis: its coordinate is the result's column. -/
theorem scores_rhs_kept (i : S1024x2048.Idx) (q : dot_S64x1024_S64x2048_S1024x2048_0_0_1_1_n_n.contr.Idx) :
    (dot_S64x1024_S64x2048_S1024x2048_0_0_1_1_n_n.rhsIdx i q 1).val = (i 1).val := by
  unfold DotDims.rhsIdx
  rw [dif_neg (show ¬(1 : Fin S64x2048.rank) ∈ dot_S64x1024_S64x2048_S1024x2048_0_0_1_1_n_n.rhsBatch by decide),
    dif_pos (show (1 : Fin S64x2048.rank) ∈ dot_S64x1024_S64x2048_S1024x2048_0_0_1_1_n_n.rhsNonContracting by decide)]
  rfl

/-- Queries against keys: contracting the feature axis (axis 0 of both operands) into the zero splat, the entry at
    (query position t, key position s) is the sum over the 64 features. -/
theorem scores_apply {φ₁ φ₂ : FTy} (l : FVec Ideal S64x1024 φ₁) (r : FVec Ideal S64x2048 φ₂) (t : Fin 1024) (s : Fin 2048) :
    matmul dot_S64x1024_S64x2048_S1024x2048_0_0_1_1_n_n none l r (constant (F := Ideal) S1024x2048 .f32 0x00000000#32) (ix2 t s)
      = ∑ c : Fin 64, l (ix2 c t) * r (ix2 c s) := by
  show FloatOps.matmul dot_S64x1024_S64x2048_S1024x2048_0_0_1_1_n_n none l r (constant (F := Ideal) S1024x2048 .f32 0x00000000#32) (ix2 t s) = _
  rw [Ideal.matmul_constant_zero_apply,
    ← Equiv.sum_comp (contrEquiv1 dot_S64x1024_S64x2048_S1024x2048_0_0_1_1_n_n 64 rfl rfl).symm]
  refine Finset.sum_congr rfl fun k _ => ?_
  have hk := contrEquiv1_symm_val dot_S64x1024_S64x2048_S1024x2048_0_0_1_1_n_n 64 rfl rfl k
  have el : dot_S64x1024_S64x2048_S1024x2048_0_0_1_1_n_n.lhsIdx (ix2 t s) ((contrEquiv1 dot_S64x1024_S64x2048_S1024x2048_0_0_1_1_n_n 64 rfl rfl).symm k) = ix2 k t :=
    funext fun a => Fin.ext (by
      match a with
      | ⟨0, _⟩ => exact (dot_S64x1024_S64x2048_S1024x2048_0_0_1_1_n_n.lhsIdx_val_of_single rfl _ _).trans hk
      | ⟨1, _⟩ => exact scores_lhs_kept _ _)
  have er : dot_S64x1024_S64x2048_S1024x2048_0_0_1_1_n_n.rhsIdx (ix2 t s) ((contrEquiv1 dot_S64x1024_S64x2048_S1024x2048_0_0_1_1_n_n 64 rfl rfl).symm k) = ix2 k s :=
    funext fun a => Fin.ext (by
      match a with
      | ⟨0, _⟩ => exact (dot_S64x1024_S64x2048_S1024x2048_0_0_1_1_n_n.rhsIdx_val_of_single rfl _ _).trans hk
      | ⟨1, _⟩ => exact scores_rhs_kept _ _)
  rw [el, er]

/-- Values against weights, the left operand's kept axis: its coordinate is the result's row. -/
theorem mix_lhs_kept (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide),
    dif_pos (show (0 : Fin S64x2048.rank) ∈ dot_S64x2048_S1024x2048_S64x1024_1_1_0_0_n_n.lhsNonContracting by decide)]
  rfl
/-- Values against weights, the right operand's kept axis: its coordinate is the result's column. -/
theorem mix_rhs_kept (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide),
    dif_pos (show (0 : Fin S1024x2048.rank) ∈ dot_S64x2048_S1024x2048_S64x1024_1_1_0_0_n_n.rhsNonContracting by decide)]
  rfl

/-- Values against weights: contracting the key-position axis (axis 1 of both operands) into the zero splat, the entry
    at (feature c, query position t) is the sum over the 2048 key positions. -/
theorem mix_apply {φ₁ φ₂ : FTy} (l : FVec Ideal S64x2048 φ₁) (r : FVec Ideal S1024x2048 φ₂) (c : Fin 64) (t : Fin 1024) :
    matmul dot_S64x2048_S1024x2048_S64x1024_1_1_0_0_n_n none l r (constant (F := Ideal) S64x1024 .f32 0x00000000#32) (ix2 c t)
      = ∑ s : Fin 2048, l (ix2 c s) * r (ix2 t s) := by
  show FloatOps.matmul dot_S64x2048_S1024x2048_S64x1024_1_1_0_0_n_n none l r (constant (F := Ideal) S64x1024 .f32 0x00000000#32) (ix2 c t) = _
  rw [Ideal.matmul_constant_zero_apply,
    ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 c t) ((contrEquiv1 dot_S64x2048_S1024x2048_S64x1024_1_1_0_0_n_n 2048 rfl rfl).symm k) = ix2 c k :=
    funext fun a => Fin.ext (by
      match a with
      | ⟨0, _⟩ => exact mix_lhs_kept _ _
      | ⟨1, _⟩ => exact (dot_S64x2048_S1024x2048_S64x1024_1_1_0_0_n_n.lhsIdx_val_of_single rfl _ _).trans hk)
  have er : dot_S64x2048_S1024x2048_S64x1024_1_1_0_0_n_n.rhsIdx (ix2 c t) ((contrEquiv1 dot_S64x2048_S1024x2048_S64x1024_1_1_0_0_n_n 2048 rfl rfl).symm k) = ix2 t k :=
    funext fun a => Fin.ext (by
      match a with
      | ⟨0, _⟩ => exact mix_rhs_kept _ _
      | ⟨1, _⟩ => exact (dot_S64x2048_S1024x2048_S64x1024_1_1_0_0_n_n.rhsIdx_val_of_single rfl _ _).trans hk)
  rw [el, er]

/-! ## The two lane reductions at a row, and the keepdims column forms -/

/-- The inserted index: row t of the scores with column s put back. -/
theorem lift_row (t : Fin 1024) (s : Fin 2048) : reduces_S1024x2048_S1024.lift (ix1 t) s = ix2 t s :=
  funext fun a => Fin.ext (by
    match a with
    | ⟨0, _⟩ => rfl
    | ⟨1, _⟩ => rfl)

/-- The maximum over the key positions, at query position t: the fold of max over the row, from the accumulator's value. -/
theorem rowMax_apply (src : FVec Ideal S1024x2048 .f32) (hφ : FKind.Formats .f32)
    (hacc : (0xFF800000#32 : BitVec 32) = FKind.maximumf.neutral .f32 hφ) (t : Fin 1024) :
    multiReduction (F := Ideal) .maximumf [1] S1024 src 0xFF800000#32 reduces_S1024x2048_S1024 hφ hacc (ix1 t)
      = (Finset.univ : Finset (Fin 2048)).fold max (Ideal.ofBits .f32 0xFF800000#32) (fun s => src (ix2 t s)) := by
  refine (Ideal.multiReduction_maximumf_single src _ reduces_S1024x2048_S1024 hφ hacc (ix1 t)).trans ?_
  exact Finset.fold_congr fun s _ => congrArg src (lift_row t s)

/-- The sum over the key positions, at query position t. -/
theorem rowSum_apply (src : FVec Ideal S1024x2048 .f32) (hφ : FKind.Formats .f32)
    (hacc : (0x00000000#32 : BitVec 32) = FKind.add.neutral .f32 hφ) (t : Fin 1024) :
    multiReduction (F := Ideal) .add [1] S1024 src 0x00000000#32 reduces_S1024x2048_S1024 hφ hacc (ix1 t)
      = ∑ s : Fin 2048, src (ix2 t s) := by
  refine (Ideal.multiReduction_add_single src _ reduces_S1024x2048_S1024 hφ hacc (ix1 t)).trans ?_
  exact Finset.sum_congr rfl fun s _ => congrArg src (lift_row t s)

/-- A vector of 1024 rows viewed as a one-column matrix reads, at (t, 0), the vector at t. -/
theorem column_apply {α : Type} (x : S1024.Idx → α) (h : S1024.ShapeCasts S1024x1) (t : Fin 1024) (u : Fin 1) :
    shapeCast S1024x1 x h (ix2 t u) = x (ix1 t) :=
  shapeCast_apply x h _ _ (by
    rw [Shape.rowMajor_val_one, Shape.rowMajor_val_two]
    show t.val = t.val * 1 + u.val
    omega)

/-- A one-column matrix spread over 2048 columns reads, at (t, s), the column at row t. -/
theorem spread_apply {α : Type} (x : S1024x1.Idx → α) (h : S1024x1.Broadcasts S1024x2048) (t : Fin 1024) (s : Fin 2048) :
    broadcastTo S1024x2048 x h (ix2 t s) = x (ix2 t (0 : Fin 1)) := by
  refine broadcastTo_apply x h (ix2 t s) (ix2 t (0 : Fin 1)) fun ax => ?_
  match ax with
  | ⟨0, _⟩ => rfl
  | ⟨1, _⟩ => rfl

/-! ## The body's arithmetic in four stages

The stored block is, stage by stage: the query block cast to a matrix and scaled by 1/8 (the narrowing to sixteen bits
is the identity on extended reals); the scores, queries against keys; the softmax weights of each row of the scores;
the values against the weights, cast back to a block with a leading unit axis. -/

/-- The query block as a 64 × 1024 matrix, every entry times the word of 1/8. -/
def scaled (v3 : Vec Ideal S1x64x1024 .f32) : FVec Ideal S64x1024 .bf16 :=
  have v4 : FVec Ideal S64x1024 .f32 := shapeCast S64x1024 v3 shapeCasts_S1x64x1024_S64x1024
  have cst : Ideal .f32 := Scalar.ofBits .f32 0x3E000000#32
  have v5 : FVec Ideal S64x1024 .f32 := broadcast S64x1024 cst
  have v6 : FVec Ideal S64x1024 .f32 := mulf v4 v5
  truncf .bf16 v6 bitsLt_bf16_f32

/-- The scores: entry (t, s) pairs query position t with key position s. -/
def scores (q : FVec Ideal S64x1024 .bf16) (k : FVec Ideal S64x2048 .bf16) : FVec Ideal S1024x2048 .f32 :=
  matmul dot_S64x1024_S64x2048_S1024x2048_0_0_1_1_n_n none q k (constant S1024x2048 .f32 0x00000000#32)

/-- Each row of the scores less its maximum, exponentiated. -/
def expos (v10 : FVec Ideal S1024x2048 .f32) : FVec Ideal S1024x2048 .f32 :=
  have v11 : FVec Ideal S1024 .f32 := multiReduction .maximumf [1] S1024 v10 0xFF800000#32 reduces_S1024x2048_S1024 (.inl rfl) rfl
  have v12 : FVec Ideal S1024x1 .f32 := shapeCast S1024x1 v11 shapeCasts_S1024_S1024x1
  have v13 : FVec Ideal S1024x2048 .f32 := broadcastTo S1024x2048 v12 broadcasts_S1024x1_S1024x2048
  have v14 : FVec Ideal S1024x2048 .f32 := subf v10 v13
  exp v14

/-- Each row of the exponentials divided by its sum. -/
def weights (v15 : FVec Ideal S1024x2048 .f32) : FVec Ideal S1024x2048 .bf16 :=
  have v16 : FVec Ideal S1024 .f32 := multiReduction .add [1] S1024 v15 0x00000000#32 reduces_S1024x2048_S1024 (.inl rfl) rfl
  have v17 : FVec Ideal S1024x1 .f32 := shapeCast S1024x1 v16 shapeCasts_S1024_S1024x1
  have v18 : FVec Ideal S1024x2048 .f32 := broadcastTo S1024x2048 v17 broadcasts_S1024x1_S1024x2048
  have v19 : FVec Ideal S1024x2048 .f32 := divf v15 v18
  truncf .bf16 v19 bitsLt_bf16_f32

/-- The values against the weights: entry (c, t) is feature c of the attended value at query position t. -/
def mixed (v : FVec Ideal S64x2048 .bf16) (w : FVec Ideal S1024x2048 .bf16) : FVec Ideal S64x1024 .f32 :=
  matmul dot_S64x2048_S1024x2048_S64x1024_1_1_0_0_n_n none v w (constant S64x1024 .f32 0x00000000#32)

/-- The stored block is the four stages composed, with a leading unit axis put back. -/
theorem pay3_eq (v3 : Vec Ideal S1x64x1024 .f32) (v8 v9 : Vec Ideal S64x2048 .bf16) :
    Gen.k0_pay3 (F := Ideal) v3 v8 v9
      = shapeCast S1x64x1024 (mixed v9 (weights (expos (scores (scaled v3) v8)))) shapeCasts_S64x1024_S1x64x1024 := rfl

/-- A key (or value) block with its unit axis dropped reads (0, c, s) at (c, s). -/
theorem pay1_apply (xk : Vec Ideal S1x64x2048 .f32) (c : Fin 64) (s : Fin 2048) :
    Gen.k0_pay1 (F := Ideal) xk (ix2 c s) = xk (ix3 0 c s) := by
  unfold Gen.k0_pay1
  rw [shapeCast_self]
  exact shapeCast_1ab_ab_apply xk _ c s

theorem pay2_apply (xv : Vec Ideal S1x64x2048 .f32) (c : Fin 64) (s : Fin 2048) :
    Gen.k0_pay2 (F := Ideal) xv (ix2 c s) = xv (ix3 0 c s) := by
  unfold Gen.k0_pay2
  rw [shapeCast_self]
  exact shapeCast_1ab_ab_apply xv _ c s

/-- The scaled query at (feature c, position t). -/
theorem scaled_apply (xq : Vec Ideal S1x64x1024 .f32) (c : Fin 64) (t : Fin 1024) :
    scaled xq (ix2 c t) = xq (ix3 0 c t) * Cert.Attn.qscale := by
  unfold scaled
  show (shapeCast S64x1024 xq shapeCasts_S1x64x1024_S64x1024) (ix2 c t) * _ = _
  rw [shapeCast_1ab_ab_apply]
  rfl

/-- The exponentials at (t, s): the score less its row's maximum, taken from the accumulator's value. -/
theorem expos_apply (S : FVec Ideal S1024x2048 .f32) (t : Fin 1024) (s : Fin 2048) :
    expos S (ix2 t s) = Ideal.exp (S (ix2 t s)
      - (Finset.univ : Finset (Fin 2048)).fold max (Ideal.ofBits .f32 0xFF800000#32) (fun s' => S (ix2 t s'))) := by
  unfold expos
  show Ideal.exp (S (ix2 t s) - broadcastTo S1024x2048 _ _ (ix2 t s)) = _
  refine congrArg (fun m => Ideal.exp (S (ix2 t s) - m)) ?_
  refine (spread_apply _ _ t s).trans ?_
  refine (column_apply _ _ t 0).trans ?_
  exact rowMax_apply S _ _ t

/-- The weights at (t, s): the exponential over its row's sum. -/
theorem weights_apply (E : FVec Ideal S1024x2048 .f32) (t : Fin 1024) (s : Fin 2048) :
    weights E (ix2 t s) = Ideal.div (E (ix2 t s)) (∑ s' : Fin 2048, E (ix2 t s')) := by
  unfold weights
  show Ideal.div (E (ix2 t s)) (broadcastTo S1024x2048 _ _ (ix2 t s)) = _
  refine congrArg (Ideal.div (E (ix2 t s))) ?_
  refine (spread_apply _ _ t s).trans ?_
  refine (column_apply _ _ t 0).trans ?_
  exact rowSum_apply E _ _ t

/-- The scores of the scaled query block against the key block are the specification's scores of query column t. -/
theorem scores_eq (xq : Vec Ideal S1x64x1024 .f32) (xk : Vec Ideal S1x64x2048 .f32) (t : Fin 1024) (s : Fin 2048) :
    scores (scaled xq) (Gen.k0_pay1 (F := Ideal) xk) (ix2 t s)
      = Cert.Attn.score (fun c' => xq (ix3 0 c' t)) (fun c' s' => xk (ix3 0 c' s')) s := by
  unfold scores Cert.Attn.score
  rw [scores_apply]
  refine Finset.sum_congr rfl fun c _ => ?_
  rw [scaled_apply, pay1_apply]

/-- THE BODY AT ONE ELEMENT: feature c at query position t of the stored block is the attended value of query column t
    over the key and value blocks. -/
theorem pay3_apply (xq : Vec Ideal S1x64x1024 .f32) (xk xv : Vec Ideal S1x64x2048 .f32) (c : Fin 64) (t : Fin 1024) :
    Gen.k0_pay3 (F := Ideal) xq (Gen.k0_pay1 (F := Ideal) xk) (Gen.k0_pay2 (F := Ideal) xv) (ix3 0 c t)
      = Cert.Attn.attend (fun c' => xq (ix3 0 c' t)) (fun c' s => xk (ix3 0 c' s)) (fun c' s => xv (ix3 0 c' s)) c := by
  rw [pay3_eq, shapeCast_ab_1ab_apply]
  unfold mixed
  rw [mix_apply]
  unfold Cert.Attn.attend
  refine Finset.sum_congr rfl fun s _ => ?_
  rw [pay2_apply, weights_apply]
  simp only [expos_apply, scores_eq]
  rfl

end Cert.KernelIdeal.BodyValue

end
-- ==== Proof.KILayout.lean ====
/-
  The reshapes around the kernel call, read at an index.  Before the call the input array [4, 3072, 2048] is viewed
  as [4, 3, 16, 64, 2048] and then as [192, 64, 2048]: block n = (b·3 + j)·16 + h of the merged array is slot j, head h
  of batch entry b, so its entry (n, c, t) is the input at (n / 48, (n % 48)·64 + c, t).  After the call the array
  [64, 64, 2048] is viewed as [4, 16, 64, 2048] and then as [4, 1024, 2048]: entry (b, r, t) of the result is the
  entry (b·16 + r / 64, r % 64, t) of the call's output.  A reshape keeps the row-major position of every entry.
-/
import proofs.«163904_j31181462569018_2_alg».proof.KernelIdeal
import Idealize.ShloMosaic.Lib.Pipeline.Value
import Idealize.ShloMosaic.Lib.ValueIdx

noncomputable section

namespace Cert.KernelIdeal.Layout

open Cert.KernelIdeal Idealize.ShloMosaic Idealize.ShloMosaic.ValueIdx
open Cert.KernelIdeal.Facts₀

variable {F : FTy → Type} [FloatOps F] [Cert.KernelIdeal.Facts]

/-- The merged array at (n, c, t) is the input at (n / 48, (n % 48)·64 + c, t). -/
theorem merged_apply (x : Vec F S4x3072x2048 .f32) (n : Fin 192) (c : Fin 64) (t : Fin 2048) :
    shapeCast S192x64x2048 (shapeCast S4x3x16x64x2048 x shapeCasts_S4x3072x2048_S4x3x16x64x2048)
        shapeCasts_S4x3x16x64x2048_S192x64x2048 (ix3 n c t)
      = x (ix3 (⟨n.val / 48, by omega⟩ : Fin 4) (⟨n.val % 48 * 64 + c.val, by omega⟩ : Fin 3072) t) := by
  have hn := n.isLt; have hc := c.isLt; have ht := t.isLt
  -- the five coordinates with the same row-major position as (n, c, t)
  rw [shapeCast_apply _ shapeCasts_S4x3x16x64x2048_S192x64x2048 (ix3 n c t)
    (ix5 (⟨n.val / 48, by omega⟩ : Fin 4) (⟨n.val % 48 / 16, by omega⟩ : Fin 3) (⟨n.val % 16, by omega⟩ : Fin 16) c t)
    (by rewrite [Shape.rowMajor_val_five, Shape.rowMajor_val_three]
        show ((((n.val / 48) * 3 + n.val % 48 / 16) * 16 + n.val % 16) * 64 + c.val) * 2048 + t.val
          = (n.val * 64 + c.val) * 2048 + t.val
        omega)]
  exact shapeCast_apply x shapeCasts_S4x3072x2048_S4x3x16x64x2048 _ _
    (by rewrite [Shape.rowMajor_val_three, Shape.rowMajor_val_five]
        show ((n.val / 48) * 3072 + (n.val % 48 * 64 + c.val)) * 2048 + t.val
          = ((((n.val / 48) * 3 + n.val % 48 / 16) * 16 + n.val % 16) * 64 + c.val) * 2048 + t.val
        omega)

/-- The result at (b, r, t) is the call's output at (b·16 + r / 64, r % 64, t). -/
theorem unmerged_apply (y : Vec F S64x64x2048 .f32) (b : Fin 4) (r : Fin 1024) (t : Fin 2048) :
    shapeCast S4x1024x2048 (shapeCast S4x16x64x2048 y shapeCasts_S64x64x2048_S4x16x64x2048)
        shapeCasts_S4x16x64x2048_S4x1024x2048 (ix3 b r t)
      = y (ix3 (⟨b.val * 16 + r.val / 64, by omega⟩ : Fin 64) (⟨r.val % 64, by omega⟩ : Fin 64) t) := by
  have hb := b.isLt; have hr := r.isLt; have ht := t.isLt
  -- the four coordinates with the same row-major position as (b, r, t)
  rw [shapeCast_apply _ shapeCasts_S4x16x64x2048_S4x1024x2048 (ix3 b r t)
    (ix4 b (⟨r.val / 64, by omega⟩ : Fin 16) (⟨r.val % 64, by omega⟩ : Fin 64) t)
    (by rewrite [Shape.rowMajor_val_four, Shape.rowMajor_val_three]
        show ((b.val * 16 + r.val / 64) * 64 + r.val % 64) * 2048 + t.val = (b.val * 1024 + r.val) * 2048 + t.val
        omega)]
  exact shapeCast_apply y shapeCasts_S64x64x2048_S4x16x64x2048 _ _
    (by rewrite [Shape.rowMajor_val_three, Shape.rowMajor_val_four]
        show ((b.val * 16 + r.val / 64) * 64 + r.val % 64) * 2048 + t.val
          = ((b.val * 16 + r.val / 64) * 64 + r.val % 64) * 2048 + t.val
        rfl)

end Cert.KernelIdeal.Layout

end
-- ==== Proof.KIValue.lean ====
/-
  From the kernel's blocks to its whole result array, over the extended reals.

  The grid has 128 points t = 2·(16·b + h) + qi: batch entry b, head h, and the half qi of the 2048 query positions.
  Before the call the input array [4, 3072, 2048] is viewed as [192, 64, 2048], block 48·b + 16·j + h of which is slot j
  (0 queries, 1 keys, 2 values) of head h of batch entry b.  At point t the query window is positions
  1024·qi … 1024·qi + 1023 of block 48·b + h, the key and value windows are blocks 48·b + 16 + h and 48·b + 32 + h
  (read when the head begins, at the even point at or below t), and the result window is positions
  1024·qi … 1024·qi + 1023 of row 16·b + h of the output array [64, 64, 2048].  Each element of a block is therefore an
  element of the input array, the block the body leaves is the attention result of (b, h) at those query positions, and
  since the result windows tile the output array, the output array ends as one function of the input.
-/
import proofs.«163904_j31181462569018_2_alg».proof.Proof.KIFrame
import proofs.«163904_j31181462569018_2_alg».proof.Proof.BodyValue
import proofs.«163904_j31181462569018_2_alg».proof.Proof.AttnSpec
import proofs.«163904_j31181462569018_2_alg».proof.Proof.KILayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

variable (m : (ℓ : Loc nD τ sig) → Buf (Elt Ideal) ℓ)

/-- The input array of core c: the launch memory at the program's argument. -/
abbrev inputOf (c : Dev nD) : Vec Ideal S4x3072x2048 .f32 := m ((c : Thread nD τ).loc main_arg0)

/-- The printed index maps, decided over the grid: at point t = 2·(16·b + h) + qi the query window sits at block
    (48·b + h, 0, qi) of the merged array, the key and value windows at blocks (48·b + 16 + h, 0, 0) and
    (48·b + 32 + h, 0, 0), and the result window at block (16·b + h, 0, qi) of the output. -/
theorem index_facts : ∀ t : Fin cfg0.N,
    win0_0.index t (0 : Fin 3) = t.val / 32 * 48 + t.val / 2 % 16
    ∧ win0_0.index t (1 : Fin 3) = 0
    ∧ win0_0.index t (2 : Fin 3) = t.val % 2
    ∧ win0_1.index t (0 : Fin 3) = t.val / 32 * 48 + 16 + t.val / 2 % 16
    ∧ win0_1.index t (1 : Fin 3) = 0
    ∧ win0_1.index t (2 : Fin 3) = 0
    ∧ win0_2.index t (0 : Fin 3) = t.val / 32 * 48 + 32 + t.val / 2 % 16
    ∧ win0_2.index t (1 : Fin 3) = 0
    ∧ win0_2.index t (2 : Fin 3) = 0
    ∧ win0_3.index t (0 : Fin 3) = t.val / 2
    ∧ win0_3.index t (1 : Fin 3) = 0
    ∧ win0_3.index t (2 : Fin 3) = t.val % 2 :=
  (by decide +kernel : ∀ t : Fin grid0.N, _)

/-- When the region is entered the merged array holds the input viewed as [4, 3, 16, 64, 2048] and then as
    [192, 64, 2048]. -/
theorem V_v1 (c : Dev nD) :
    (V m c main_v1 : Vec Ideal S192x64x2048 .f32)
      = shapeCast S192x64x2048 (shapeCast S4x3x16x64x2048 (inputOf m c) shapeCasts_S4x3072x2048_S4x3x16x64x2048)
          shapeCasts_S4x3x16x64x2048_S192x64x2048 := by
  dsimp only [V, V0]
  simp only [hostOps0, List.flatten_cons, List.flatten_nil, List.append_nil]
  after_results
  rfl

/-- The batch entry, the head and the query positions of point t = 2·(16·b + h) + qi. -/
abbrev batchOf (t : Fin cfg0.N) : Fin 4 := ⟨t.val / 32, by have h := t.isLt; have hN : cfg0.N = 128 := N_0; omega⟩
abbrev headOf (t : Fin cfg0.N) : Fin 16 := ⟨t.val / 2 % 16, by omega⟩
abbrev posOf (t : Fin cfg0.N) (x : Fin 1024) : Fin 2048 := ⟨t.val % 2 * 1024 + x.val, by have := x.isLt; omega⟩

/-- The query block of point t: feature c' at position x of the block is the input at batch entry b, the query row of
    head h and feature c', position 1024·qi + x. -/
theorem iblk0_apply (c : Dev nD) (t : Fin cfg0.N) (c' : Fin 64) (x : Fin 1024) :
    (iblk m c 0 t : Vec Ideal S1x64x1024 .f32) (ix3 (0 : Fin 1) c' x)
      = inputOf m c (ix3 (batchOf t) (Cert.Attn.row 0 (headOf t) c') (posOf t x)) := by
  obtain ⟨e0, e1, e2, -⟩ := index_facts t
  have hN : cfg0.N = 128 := N_0
  have ht := t.isLt
  have hc := c'.isLt
  have hx := x.isLt
  unfold iblk
  rw [View.read_apply]
  show (V m c main_v1 : Vec Ideal S192x64x2048 .f32) _ = _
  rw [V_v1]
  have hemb : (((cfg0.win 0).blk t).view.emb (ix3 (0 : Fin 1) c' x) : S192x64x2048.Idx)
      = ix3 (⟨t.val / 32 * 48 + t.val / 2 % 16, by omega⟩ : Fin 192) c' (⟨t.val % 2 * 1024 + x.val, by omega⟩ : Fin 2048) := by
    funext a; apply Fin.ext
    match a with
    | ⟨0, _⟩ => show win0_0.index t (0 : Fin 3) * 1 + 1 * 0 = t.val / 32 * 48 + t.val / 2 % 16; rw [e0]; omega
    | ⟨1, _⟩ => show win0_0.index t (1 : Fin 3) * 64 + 1 * c'.val = c'.val; rw [e1]; omega
    | ⟨2, _⟩ => show win0_0.index t (2 : Fin 3) * 1024 + 1 * x.val = t.val % 2 * 1024 + x.val; rw [e2]; omega
  rw [hemb, Layout.merged_apply]
  refine congrArg (inputOf m c) ?_
  funext a; apply Fin.ext
  match a with
  | ⟨0, _⟩ => show (t.val / 32 * 48 + t.val / 2 % 16) / 48 = t.val / 32; omega
  | ⟨1, _⟩ => show (t.val / 32 * 48 + t.val / 2 % 16) % 48 * 64 + c'.val = 0 * 1024 + (t.val / 2 % 16) * 64 + c'.val; omega
  | ⟨2, _⟩ => rfl

/-- The key block of the head of point t: feature c' at position s is the input at batch entry b, the key row of
    head h and feature c', position s. -/
theorem iblk1_apply (c : Dev nD) (t : Fin cfg0.N) (c' : Fin 64) (s : Fin 2048) :
    (iblk m c 1 (headPt t) : Vec Ideal S1x64x2048 .f32) (ix3 (0 : Fin 1) c' s)
      = inputOf m c (ix3 (batchOf t) (Cert.Attn.row 1 (headOf t) c') s) := by
  obtain ⟨-, -, -, e0, e1, e2, -⟩ := index_facts (headPt t)
  have hp : (headPt t).val = t.val - t.val % 2 := rfl
  have hN : cfg0.N = 128 := N_0
  have ht := t.isLt
  have hc := c'.isLt
  have hs := s.isLt
  unfold iblk
  rw [View.read_apply]
  show (V m c main_v1 : Vec Ideal S192x64x2048 .f32) _ = _
  rw [V_v1]
  have hemb : (((cfg0.win 1).blk (headPt t)).view.emb (ix3 (0 : Fin 1) c' s) : S192x64x2048.Idx)
      = ix3 (⟨t.val / 32 * 48 + 16 + t.val / 2 % 16, by omega⟩ : Fin 192) c' s := by
    funext a; apply Fin.ext
    match a with
    | ⟨0, _⟩ => show win0_1.index (headPt t) (0 : Fin 3) * 1 + 1 * 0 = t.val / 32 * 48 + 16 + t.val / 2 % 16; rw [e0, hp]; omega
    | ⟨1, _⟩ => show win0_1.index (headPt t) (1 : Fin 3) * 64 + 1 * c'.val = c'.val; rw [e1]; omega
    | ⟨2, _⟩ => show win0_1.index (headPt t) (2 : Fin 3) * 2048 + 1 * s.val = s.val; rw [e2]; omega
  rw [hemb, Layout.merged_apply]
  refine congrArg (inputOf m c) ?_
  funext a; apply Fin.ext
  match a with
  | ⟨0, _⟩ => show (t.val / 32 * 48 + 16 + t.val / 2 % 16) / 48 = t.val / 32; omega
  | ⟨1, _⟩ => show (t.val / 32 * 48 + 16 + t.val / 2 % 16) % 48 * 64 + c'.val = 1 * 1024 + (t.val / 2 % 16) * 64 + c'.val; omega
  | ⟨2, _⟩ => rfl

/-- The value block of the head of point t: feature c' at position s is the input at batch entry b, the value row of
    head h and feature c', position s. -/
theorem iblk2_apply (c : Dev nD) (t : Fin cfg0.N) (c' : Fin 64) (s : Fin 2048) :
    (iblk m c 2 (headPt t) : Vec Ideal S1x64x2048 .f32) (ix3 (0 : Fin 1) c' s)
      = inputOf m c (ix3 (batchOf t) (Cert.Attn.row 2 (headOf t) c') s) := by
  obtain ⟨-, -, -, -, -, -, e0, e1, e2, -⟩ := index_facts (headPt t)
  have hp : (headPt t).val = t.val - t.val % 2 := rfl
  have hN : cfg0.N = 128 := N_0
  have ht := t.isLt
  have hc := c'.isLt
  have hs := s.isLt
  unfold iblk
  rw [View.read_apply]
  show (V m c main_v1 : Vec Ideal S192x64x2048 .f32) _ = _
  rw [V_v1]
  have hemb : (((cfg0.win 2).blk (headPt t)).view.emb (ix3 (0 : Fin 1) c' s) : S192x64x2048.Idx)
      = ix3 (⟨t.val / 32 * 48 + 32 + t.val / 2 % 16, by omega⟩ : Fin 192) c' s := by
    funext a; apply Fin.ext
    match a with
    | ⟨0, _⟩ => show win0_2.index (headPt t) (0 : Fin 3) * 1 + 1 * 0 = t.val / 32 * 48 + 32 + t.val / 2 % 16; rw [e0, hp]; omega
    | ⟨1, _⟩ => show win0_2.index (headPt t) (1 : Fin 3) * 64 + 1 * c'.val = c'.val; rw [e1]; omega
    | ⟨2, _⟩ => show win0_2.index (headPt t) (2 : Fin 3) * 2048 + 1 * s.val = s.val; rw [e2]; omega
  rw [hemb, Layout.merged_apply]
  refine congrArg (inputOf m c) ?_
  funext a; apply Fin.ext
  match a with
  | ⟨0, _⟩ => show (t.val / 32 * 48 + 32 + t.val / 2 % 16) / 48 = t.val / 32; omega
  | ⟨1, _⟩ => show (t.val / 32 * 48 + 32 + t.val / 2 % 16) % 48 * 64 + c'.val = 2 * 1024 + (t.val / 2 % 16) * 64 + c'.val; omega
  | ⟨2, _⟩ => rfl

/-- What point t leaves in the result's buffer, at one element: the attention result of batch entry b, head h, at
    feature c' and query position 1024·qi + x. -/
theorem outAt_apply (c : Dev nD) (t : Fin cfg0.N) (c' : Fin 64) (x : Fin 1024) :
    (outAt m c t : Vec Ideal S1x64x1024 .f32) (ix3 (0 : Fin 1) c' x)
      = Cert.Attn.resultAt (inputOf m c) (batchOf t) (headOf t) c' (posOf t x) := by
  unfold outAt kscr vscr
  refine (BodyValue.pay3_apply (iblk m c 0 t) (iblk m c 1 (headPt t)) (iblk m c 2 (headPt t)) c' x).trans ?_
  unfold Cert.Attn.resultAt Cert.Attn.slot
  simp only [iblk0_apply, iblk1_apply, iblk2_apply]

/-- The output array as one function of the input: row 16·b + h of the output is head h of batch entry b. -/
abbrev outArray (c : Dev nD) : Vec Ideal S64x64x2048 .f32 := fun i =>
  Cert.Attn.resultAt (inputOf m c) ⟨(i 0).val / 16, by have h : (i 0).val < 64 := (i 0).isLt; omega⟩
    ⟨(i 0).val % 16, Nat.mod_lt _ (by decide)⟩ (i 1) (i 2)

/-- An element of what point t leaves in the result's buffer is the output function at the array index under it:
    row t / 2, the same feature, position 1024·(t % 2) + x. -/
theorem outAt_eq_outArray (c : Dev nD) (t : Fin cfg0.N) (y : S1x64x1024.Idx) (i : S64x64x2048.Idx)
    (h0 : (i 0).val = t.val / 2) (h1 : (i 1).val = (y 1).val) (h2 : (i 2).val = t.val % 2 * 1024 + (y 2).val) :
    (outAt m c t : Vec Ideal S1x64x1024 .f32) y = outArray m c i := by
  obtain ⟨u, c', x, rfl⟩ : ∃ (u : Fin 1) (c' : Fin 64) (x : Fin 1024), y = ix3 u c' x := ⟨y 0, y 1, y 2, eq_ix3 y⟩
  obtain rfl : u = 0 := Subsingleton.elim _ _
  have hN : cfg0.N = 128 := N_0
  have ht := t.isLt
  rw [outAt_apply]
  show Cert.Attn.resultAt (inputOf m c) (batchOf t) (headOf t) c' (posOf t x) = Cert.Attn.resultAt (inputOf m c) _ _ (i 1) (i 2)
  have hb : batchOf t = (⟨(i 0).val / 16, by have h : (i 0).val < 64 := (i 0).isLt; omega⟩ : Fin 4) :=
    Fin.ext (by show t.val / 32 = (i 0).val / 16; omega)
  have hh : headOf t = (⟨(i 0).val % 16, Nat.mod_lt _ (by decide)⟩ : Fin 16) :=
    Fin.ext (by show t.val / 2 % 16 = (i 0).val % 16; omega)
  have hc : c' = i 1 := Fin.ext (by show c'.val = (i 1).val; rw [h1])
  have hp : posOf t x = i 2 := Fin.ext (by show t.val % 2 * 1024 + x.val = (i 2).val; rw [h2])
  rw [hb, hh, hc, hp]

/-- WHAT POINT t WRITES BACK is block t of the output function. -/
theorem writeback_eq (c : Dev nD) (t : Fin cfg0.N) :
    (dats m 0 c).flushed 3 t = ((cfg0.win 3).blk t).view.read (Elt Ideal) (outArray m c) := by
  show (cfg0.win 3).cut (grid0.coords t) ((dats m 0 c).after 3 t) = _
  rw [after3]
  obtain ⟨-, -, -, -, -, -, -, -, -, e0, e1, e2⟩ := index_facts t
  funext y
  rw [View.read_apply]
  refine outAt_eq_outArray m c t y _ ?_ ?_ ?_
  · show win0_3.index t (0 : Fin 3) * 1 + 1 * (y 0).val = t.val / 2
    have hy : (y 0).val < 1 := (y 0).isLt
    rw [e0]; omega
  · show win0_3.index t (1 : Fin 3) * 64 + 1 * (y 1).val = (y 1).val
    rw [e1]; omega
  · show win0_3.index t (2 : Fin 3) * 1024 + 1 * (y 2).val = t.val % 2 * 1024 + (y 2).val
    rw [e2]; omega

/-- An index of the output array is in point t's block iff each coordinate is in the block's range on its axis. -/
theorem mem_block (t : Fin cfg0.N) (i : S64x64x2048.Idx) :
    i ∈ ((cfg0.win 3).blk t).view.set ↔ ∀ a : Fin 3, win0_3.index t a * S1x64x1024.size a ≤ (i a).val
      ∧ (i a).val < win0_3.index t a * S1x64x1024.size a + S1x64x1024.size a := by
  show i ∈ ((View.whole main_v2).slice (win0_3.rect t)).set ↔ _
  rw [View.set_slice_whole, Rect.mem_set_unit]
  exact Iff.rfl

/-- Every index of the output array is in some point's block: row r, position p lies under point 2·r + p / 1024. -/
theorem blocks_cover (i : S64x64x2048.Idx) :
    ∃ t : Fin cfg0.N, (cfg0.win 3).flush t = true ∧ i ∈ ((cfg0.win 3).blk t).view.set := by
  have hN : cfg0.N = 128 := N_0
  have h0 : (i 0).val < 64 := (i 0).isLt
  have h1 : (i 1).val < 64 := (i 1).isLt
  have h2 : (i 2).val < 2048 := (i 2).isLt
  obtain ⟨t, ht⟩ : ∃ t : Fin cfg0.N, t.val = 2 * (i 0).val + (i 2).val / 1024 :=
    ⟨⟨2 * (i 0).val + (i 2).val / 1024, by omega⟩, rfl⟩
  obtain ⟨-, -, -, -, -, -, -, -, -, e0, e1, e2⟩ := index_facts t
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 64 ≤ (i 1).val ∧ (i 1).val < win0_3.index t (1 : Fin 3) * 64 + 64
    rw [e1]; omega
  | ⟨2, _⟩ =>
    show win0_3.index t (2 : Fin 3) * 1024 ≤ (i 2).val ∧ (i 2).val < win0_3.index t (2 : Fin 3) * 1024 + 1024
    rw [e2]; omega

/-- THE OUTPUT ARRAY after the run: the output function of the input. -/
theorem final3 (c : Dev nD) : (dats m 0 c).arrAt 3 cfg0.N = outArray m c :=
  (dats m 0 c).arrAt_eq_of_cover 3 (outArray m c) (fun t _ => writeback_eq m c t) blocks_cover

end Cert.KernelIdeal.Hand

end
-- ==== Proof.KIFinal.lean ====
import proofs.«163904_j31181462569018_2_alg».proof.Proof.KIRun
import proofs.«163904_j31181462569018_2_alg».proof.Proof.KIValue
import proofs.«163904_j31181462569018_2_alg».proof.Proof.KILayout
import proofs.«163904_j31181462569018_2_alg».proof.Proof.AttnSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

/-- What the two reshapes after the region leave in the result: the pipeline's result array reshaped twice. -/
theorem Vend_v4 (c : Dev nD) :
    (Vend m c (Proc.devRef .tc main_v4) : S4x1024x2048.Idx → EReal)
      = shapeCast S4x1024x2048 (shapeCast S4x16x64x2048 ((dats m 0 c).arrAt 3 cfg0.N : S64x64x2048.Idx → EReal) shapeCasts_S64x64x2048_S4x16x64x2048)
          shapeCasts_S4x16x64x2048_S4x1024x2048 := by
  show StableHlo.after [hostOps1].flatten (Wexit m c) (Proc.devRef .tc main_v4) = _
  simp only [List.flatten_cons, List.flatten_nil, List.append_nil, hostOps1]
  after_results
  rw [Wexit_v2]
  rfl

/-- The program's result is softmax attention of the input, head by head: row `r` = 64·head + feature of batch
    entry `b` of the reshaped result is row (16·b + head, feature) of the pipeline's result array, whose entry at
    query position `t` is the attended value of that head's query column `t`. -/
theorem result_eq (c : Dev nD) :
    (Vend m c (Proc.devRef .tc main_v4) : S4x1024x2048.Idx → EReal) = Cert.Attn.result (m ((c.tc : Thread nD τ).loc main_arg0)) := by
  rw [Vend_v4]
  funext i
  obtain ⟨b, r, t, rfl⟩ : ∃ (b : Fin 4) (r : Fin 1024) (t : Fin 2048), i = ix3 b r t := ⟨i 0, i 1, i 2, eq_ix3 i⟩
  rw [Cert.KernelIdeal.Layout.unmerged_apply, final3 m c, Cert.Attn.result_ix3]
  unfold Cert.Attn.resultRow
  have hb : b.val < 4 := b.isLt
  have hr : r.val < 1024 := r.isLt
  show Cert.Attn.resultAt (m ((c.tc : Thread nD τ).loc main_arg0)) (⟨(b.val * 16 + r.val / 64) / 16, by omega⟩ : Fin 4)
      (⟨(b.val * 16 + r.val / 64) % 16, by omega⟩ : Fin 16) (⟨r.val % 64, by omega⟩ : Fin 64) t = _
  have e1 : (⟨(b.val * 16 + r.val / 64) / 16, by omega⟩ : Fin 4) = b := Fin.ext (by show (b.val * 16 + r.val / 64) / 16 = b.val; omega)
  have e2 : (⟨(b.val * 16 + r.val / 64) % 16, by omega⟩ : Fin 16) = (⟨r.val / 64, by omega⟩ : Fin 16) :=
    Fin.ext (by show (b.val * 16 + r.val / 64) % 16 = r.val / 64; omega)
  rw [e1, e2]

end Cert.KernelIdeal.Hand

end
-- ==== Proof.RefScale.lean ====
/-
  The scale of the reference's scores.  The reference multiplies BOTH operands of its score product by
  s = 1 / sqrt (sqrt 64), where the specification multiplies the query alone by 1/8.  On the extended reals
  s is the real number (sqrt 8)⁻¹, s · s is 1/8, and (a · s) · (b · s) = (a · (s · s)) · b for all a, b, because
  the multiplication of the extended reals is commutative and associative.
-/
import Idealize.ShloMosaic.PureOps.Ideal
import proofs.«163904_j31181462569018_2_alg».proof.Proof.AttnSpec

noncomputable section

namespace Cert.ReferenceIdeal.RefScale

open Idealize.ShloMosaic

/-- The factor both operands of the reference's score product carry: 1 / sqrt (sqrt 64). -/
def rscale : EReal :=
  Ideal.div (Ideal.ofBits .f32 0x3F800000#32) (Ideal.sqrt (Ideal.sqrt (Ideal.ofBits .f32 0x42800000#32)))

/-- The word 0x42800000 is 64. -/
theorem word_64 : Ideal.ofBits .f32 0x42800000#32 = ((64 : ℝ) : EReal) := by
  simp [Ideal.ofBits, Ideal.ieee, -EReal.coe_mul]; norm_num

/-- The word 0x3F800000 is 1. -/
theorem word_1 : Ideal.ofBits .f32 0x3F800000#32 = ((1 : ℝ) : EReal) := by
  simp [Ideal.ofBits, Ideal.ieee, -EReal.coe_mul]; norm_num

/-- The word 0x3E000000 is 1/8. -/
theorem word_eighth : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num, Real.sqrt_sq (by norm_num)]

theorem sqrt_8_pos : 0 < Real.sqrt 8 := Real.sqrt_pos.2 (by norm_num)

/-- The reference's factor is the real (sqrt 8)⁻¹. -/
theorem rscale_eq : rscale = (((1 / Real.sqrt 8 : ℝ)) : EReal) := by
  unfold rscale
  rw [word_64, word_1, Ideal.sqrt_coe, if_neg (by norm_num), sqrt_64, Ideal.sqrt_coe, if_neg (by norm_num),
    Ideal.div_coe (ne_of_gt sqrt_8_pos), ← EReal.coe_mul, one_mul]

/-- Its square is the specification's factor 1/8. -/
theorem rscale_sq : rscale * rscale = Cert.Attn.qscale := by
  unfold Cert.Attn.qscale
  rw [rscale_eq, word_eighth, ← EReal.coe_mul]
  congr 1
  have h := Real.mul_self_sqrt (show (0 : ℝ) ≤ 8 by norm_num)
  have hp := sqrt_8_pos
  field_simp
  linarith [h]

/-- The two factors of a product move onto one operand: multiplication of extended reals is commutative and
    associative. -/
theorem scale_both (a b s : EReal) : (a * s) * (b * s) = (a * (s * s)) * b := by
  rw [mul_mul_mul_comm, mul_right_comm]

/-- One term of a score: the reference's product of the two scaled operands is the specification's. -/
theorem score_term (a b : EReal) : (a * rscale) * (b * rscale) = (a * Cert.Attn.qscale) * b := by
  rw [scale_both, rscale_sq]

end Cert.ReferenceIdeal.RefScale

end
-- ==== Proof.RefLayout.lean ====
/-
  The reference's queries, keys and values at an index.  The input array [4, 3072, 2048] is viewed as
  [4, 3, 16, 64, 2048]; slot j of it (0 queries, 1 keys, 2 values) with its unit axis dropped is a
  [4, 16, 64, 2048] array whose entry (b, h, c, t) is the input at (b, j·1024 + h·64 + c, t).  The queries and the
  keys are then each multiplied by the scalar 1 / sqrt (sqrt 64).
-/
import proofs.«163904_j31181462569018_2_alg».proof.Proof.Gen.ReferenceIdeal.Read
import proofs.«163904_j31181462569018_2_alg».proof.Proof.AttnSpec
import proofs.«163904_j31181462569018_2_alg».proof.Proof.RefScale
import Idealize.ShloMosaic.Lib.ValueIdx
import Idealize.ShloMosaic.PureOps.Ideal

noncomputable section

namespace Cert.ReferenceIdeal.RefLayout

open Cert.ReferenceIdeal Cert.ReferenceIdeal.Gen Cert.ReferenceIdeal.Read Idealize.ShloMosaic Idealize.ShloMosaic.ValueIdx
open Cert.ReferenceIdeal.RefScale (rscale)

variable [Cert.ReferenceIdeal.Facts]

/-! ## The three slots: row-major positions agree -/

/-- Entry (b, h, c, t) of the queries is read from the input at (b, h·64 + c, t). -/
theorem q_idx (b : Fin 4) (h : Fin 16) (c : Fin 64) (t : Fin 2048) :
    idx_main_v0 (idx_main_v1 (idx_main_v2 (ix4 b h c t))) = ix3 b (Cert.Attn.row 0 h c) t := by
  funext a; apply Fin.ext
  have hb := b.isLt; have hh := h.isLt; have hc := c.isLt; have ht := t.isLt
  match a with
  | ⟨0, _⟩ => dsimp only [idx_main_v0, idx_main_v1, idx_main_v2, ix4, ix3, Cert.Attn.row]; omega
  | ⟨1, _⟩ => dsimp only [idx_main_v0, idx_main_v1, idx_main_v2, ix4, ix3, Cert.Attn.row]; omega
  | ⟨2, _⟩ => dsimp only [idx_main_v0, idx_main_v1, idx_main_v2, ix4, ix3, Cert.Attn.row]; omega

/-- Entry (b, h, c, t) of the keys is read from the input at (b, 1024 + h·64 + c, t). -/
theorem k_idx (b : Fin 4) (h : Fin 16) (c : Fin 64) (t : Fin 2048) :
    idx_main_v0 (idx_main_v3 (idx_main_v4 (ix4 b h c t))) = ix3 b (Cert.Attn.row 1 h c) t := by
  funext a; apply Fin.ext
  have hb := b.isLt; have hh := h.isLt; have hc := c.isLt; have ht := t.isLt
  match a with
  | ⟨0, _⟩ => dsimp only [idx_main_v0, idx_main_v3, idx_main_v4, ix4, ix3, Cert.Attn.row]; omega
  | ⟨1, _⟩ => dsimp only [idx_main_v0, idx_main_v3, idx_main_v4, ix4, ix3, Cert.Attn.row]; omega
  | ⟨2, _⟩ => dsimp only [idx_main_v0, idx_main_v3, idx_main_v4, ix4, ix3, Cert.Attn.row]; omega

/-- Entry (b, h, c, t) of the values is read from the input at (b, 2048 + h·64 + c, t). -/
theorem v_idx (b : Fin 4) (h : Fin 16) (c : Fin 64) (t : Fin 2048) :
    idx_main_v0 (idx_main_v5 (idx_main_v6 (ix4 b h c t))) = ix3 b (Cert.Attn.row 2 h c) t := by
  funext a; apply Fin.ext
  have hb := b.isLt; have hh := h.isLt; have hc := c.isLt; have ht := t.isLt
  match a with
  | ⟨0, _⟩ => dsimp only [idx_main_v0, idx_main_v5, idx_main_v6, ix4, ix3, Cert.Attn.row]; omega
  | ⟨1, _⟩ => dsimp only [idx_main_v0, idx_main_v5, idx_main_v6, ix4, ix3, Cert.Attn.row]; omega
  | ⟨2, _⟩ => dsimp only [idx_main_v0, idx_main_v5, idx_main_v6, ix4, ix3, Cert.Attn.row]; omega

variable (x0 : (⟨S4x3072x2048, .f32⟩ : BufTy).Contents (Elt Ideal))

/-- The queries at (b, h, c, t). -/
theorem q_at (b : Fin 4) (h : Fin 16) (c : Fin 64) (t : Fin 2048) :
    val_main_v2 (F := Ideal) x0 (ix4 b h c t) = x0 (ix3 b (Cert.Attn.row 0 h c) t) := by
  rw [val_main_v2_apply, val_main_v1_apply, val_main_v0_apply, q_idx]

/-- The keys at (b, h, c, t). -/
theorem k_at (b : Fin 4) (h : Fin 16) (c : Fin 64) (t : Fin 2048) :
    val_main_v4 (F := Ideal) x0 (ix4 b h c t) = x0 (ix3 b (Cert.Attn.row 1 h c) t) := by
  rw [val_main_v4_apply, val_main_v3_apply, val_main_v0_apply, k_idx]

/-- The values at (b, h, c, t). -/
theorem v_at (b : Fin 4) (h : Fin 16) (c : Fin 64) (t : Fin 2048) :
    val_main_v6 (F := Ideal) x0 (ix4 b h c t) = x0 (ix3 b (Cert.Attn.row 2 h c) t) := by
  rw [val_main_v6_apply, val_main_v5_apply, val_main_v0_apply, v_idx]

/-! ## The scaled queries and keys -/

/-- The scalar the reference computes is 1 / sqrt (sqrt 64), at its one index. -/
theorem scale_at (i : S_.Idx) : val_main_v9 (F := Ideal) i = rscale := rfl

/-- The scaled queries at (b, h, c, t). -/
theorem qs_at (b : Fin 4) (h : Fin 16) (c : Fin 64) (t : Fin 2048) :
    val_main_v11 (F := Ideal) x0 (ix4 b h c t) = x0 (ix3 b (Cert.Attn.row 0 h c) t) * rscale := by
  rw [val_main_v11_apply, Ideal.mulf_def, q_at, val_main_v10_apply, scale_at]

/-- The scaled keys at (b, h, c, t). -/
theorem ks_at (b : Fin 4) (h : Fin 16) (c : Fin 64) (t : Fin 2048) :
    val_main_v13 (F := Ideal) x0 (ix4 b h c t) = x0 (ix3 b (Cert.Attn.row 1 h c) t) * rscale := by
  rw [val_main_v13_apply, Ideal.mulf_def, k_at, val_main_v12_apply, scale_at]

end Cert.ReferenceIdeal.RefLayout

end
-- ==== Proof.RefValue.lean ====
/-
  The reference program computes the specification.  Stage by stage, at explicit coordinates (batch entry b, head h,
  feature c, query position t, key position s): the score product is the specification's score (the two factors
  1 / sqrt (sqrt 64) on its operands are the one factor 1/8 on the query); the maximum over the key positions from
  -∞, and its maximum with -∞ again, is the specification's largest score; the exponentials of the differences, their
  sum over the key positions, the quotients and the product with the values are the specification's unnormalised
  weights, normaliser, weights and attended value; the last reshape reads row r of the result at head r / 64,
  feature r % 64.
-/
import proofs.«163904_j31181462569018_2_alg».proof.Proof.Gen.ReferenceIdeal.Read
import proofs.«163904_j31181462569018_2_alg».proof.Proof.AttnSpec
import proofs.«163904_j31181462569018_2_alg».proof.Proof.RefScale
import proofs.«163904_j31181462569018_2_alg».proof.Proof.RefLayout
import Idealize.ShloMosaic.Lib.ValueIdx
import Idealize.ShloMosaic.PureOps.Ideal
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.ReferenceIdeal.RefLayout Cert.Attn

variable [Cert.ReferenceIdeal.Facts]

/-! ## Index equations of the later stages -/

/-- The score at (b, h, t, s) multiplies the queries at (b, h, c, t) … -/
theorem lidx14 (b : Fin 4) (h : Fin 16) (t s : Fin 2048) (c : Fin 64) :
    lidx_main_v14 (ix4 b h t s) c = ix4 b h c t :=
  funext fun a => Fin.ext (by match a with | ⟨0, _⟩ => rfl | ⟨1, _⟩ => rfl | ⟨2, _⟩ => rfl | ⟨3, _⟩ => rfl)

/-- … with the keys at (b, h, c, s). -/
theorem ridx14 (b : Fin 4) (h : Fin 16) (t s : Fin 2048) (c : Fin 64) :
    ridx_main_v14 (ix4 b h t s) c = ix4 b h c s :=
  funext fun a => Fin.ext (by match a with | ⟨0, _⟩ => rfl | ⟨1, _⟩ => rfl | ⟨2, _⟩ => rfl | ⟨3, _⟩ => rfl)

/-- A row's statistic, broadcast along the key positions, is read at (b, h, t). -/
theorem idx19 (b : Fin 4) (h : Fin 16) (t s : Fin 2048) :
    idx_main_v18 (idx_main_v19 (ix4 b h t s)) = ix3 b h t :=
  funext fun a => Fin.ext (by match a with | ⟨0, _⟩ => rfl | ⟨1, _⟩ => rfl | ⟨2, _⟩ => rfl)

theorem idx24 (b : Fin 4) (h : Fin 16) (t s : Fin 2048) :
    idx_main_v23 (idx_main_v24 (ix4 b h t s)) = ix3 b h t :=
  funext fun a => Fin.ext (by match a with | ⟨0, _⟩ => rfl | ⟨1, _⟩ => rfl | ⟨2, _⟩ => rfl)

/-- The sum over the key positions at (b, h, t) runs over the entries (b, h, t, s). -/
theorem idx22 (b : Fin 4) (h : Fin 16) (t s : Fin 2048) :
    idx_main_v22 (ix3 b h t) s = ix4 b h t s :=
  funext fun a => Fin.ext (by match a with | ⟨0, _⟩ => rfl | ⟨1, _⟩ => rfl | ⟨2, _⟩ => rfl | ⟨3, _⟩ => rfl)

/-- The result at (b, h, c, t) multiplies the values at (b, h, c, s) … -/
theorem lidx26 (b : Fin 4) (h : Fin 16) (c : Fin 64) (t s : Fin 2048) :
    lidx_main_v26 (ix4 b h c t) s = ix4 b h c s :=
  funext fun a => Fin.ext (by match a with | ⟨0, _⟩ => rfl | ⟨1, _⟩ => rfl | ⟨2, _⟩ => rfl | ⟨3, _⟩ => rfl)

/-- … with the weights at (b, h, t, s). -/
theorem ridx26 (b : Fin 4) (h : Fin 16) (c : Fin 64) (t s : Fin 2048) :
    ridx_main_v26 (ix4 b h c t) s = ix4 b h t s :=
  funext fun a => Fin.ext (by match a with | ⟨0, _⟩ => rfl | ⟨1, _⟩ => rfl | ⟨2, _⟩ => rfl | ⟨3, _⟩ => rfl)

/-- Row r of the result array is head r / 64, feature r % 64. -/
theorem idx27 (b : Fin 4) (r : Fin 1024) (t : Fin 2048) :
    idx_main_v27 (ix3 b r t) = ix4 b (⟨r.val / 64, by omega⟩ : Fin 16) (⟨r.val % 64, by omega⟩ : Fin 64) t := by
  funext a; apply Fin.ext
  have hb := b.isLt; have hr := r.isLt; have ht := t.isLt
  match a with
  | ⟨0, _⟩ => dsimp only [idx_main_v27, ix4, ix3]; omega
  | ⟨1, _⟩ => dsimp only [idx_main_v27, ix4, ix3]; omega
  | ⟨2, _⟩ => dsimp only [idx_main_v27, ix4, ix3]; omega
  | ⟨3, _⟩ => dsimp only [idx_main_v27, ix4, ix3]; omega

/-- The row index (b, h, t) with key position s put back on the last axis is (b, h, t, s). -/
theorem lift_d3 (hr : S4x16x2048x2048.Reduces [3] S4x16x2048) (b : Fin 4) (h : Fin 16) (t : Fin 2048)
    (s : Fin (S4x16x2048x2048.size 3)) : hr.lift (ix3 b h t) s = ix4 b h t (⟨s.val, s.isLt⟩ : Fin 2048) :=
  funext fun a => Fin.ext (by match a with | ⟨0, _⟩ => rfl | ⟨1, _⟩ => rfl | ⟨2, _⟩ => rfl | ⟨3, _⟩ => rfl)

/-! ## The word of -∞ -/

theorem ninf_eq_bot : ninf = ⊥ := by
  unfold ninf; simp [Ideal.ofBits, Ideal.ieee]

/-! ## The stages -/

variable (x0 : (⟨S4x3072x2048, .f32⟩ : BufTy).Contents (Elt Ideal))

/-- The query column of (b, h, t), the keys and the values of (b, h). -/
abbrev qcol (b : Fin 4) (h : Fin 16) (t : Fin 2048) : Fin 64 → EReal := fun c => slot x0 b 0 h c t
abbrev keys (b : Fin 4) (h : Fin 16) : Fin 64 → Fin 2048 → EReal := slot x0 b 1 h
abbrev vals (b : Fin 4) (h : Fin 16) : Fin 64 → Fin 2048 → EReal := slot x0 b 2 h

/-- The reference's score at (b, h, t, s) is the specification's. -/
theorem scores_at (b : Fin 4) (h : Fin 16) (t s : Fin 2048) :
    val_main_v14 (F := Ideal) x0 (ix4 b h t s) = score (qcol x0 b h t) (keys x0 b h) s := by
  rw [val_main_v14_apply]
  unfold score
  dsimp only [qcol, keys, slot]
  refine Finset.sum_congr rfl fun c _ => ?_
  rw [lidx14, ridx14, qs_at, ks_at, RefScale.score_term]

/-- The reduce with a maximum body over the key positions, from -∞, is the fold of max over them. -/
theorem max_at (b : Fin 4) (h : Fin 16) (t : Fin 2048) :
    val_main_v15 (F := Ideal) x0 (ix3 b h t)
      = (Finset.univ : Finset (Fin 2048)).fold max ninf (fun s => val_main_v14 (F := Ideal) x0 (ix4 b h t s)) := by
  have hr : S4x16x2048x2048.Reduces [3] S4x16x2048 := by decide
  unfold val_main_v15
  rw [Host.reduce_eq_fold_single FloatOps.maximumf _ _ reducesTo_S4x16x2048x2048_S4x16x2048_d3 hr h_S_]
  have hf : (val_main_v14 (F := Ideal) x0 ∘ hr.lift (ix3 b h t))
      = fun s : Fin 2048 => val_main_v14 (F := Ideal) x0 (ix4 b h t s) :=
    funext fun s => congrArg (val_main_v14 (F := Ideal) x0) (lift_d3 hr b h t s)
  exact congrArg (fun f => Finset.fold max ninf f (Finset.univ : Finset (Fin 2048))) hf

/-- The largest score of the row (b, h, t): the maximum with -∞ changes nothing. -/
theorem rowmax_at (b : Fin 4) (h : Fin 16) (t : Fin 2048) :
    val_main_v17 (F := Ideal) x0 (ix3 b h t) = rowMax (qcol x0 b h t) (keys x0 b h) := by
  rw [val_main_v17_apply, Ideal.maximumf_def, max_at, val_main_v16_apply]
  have e : val_main_cst_2 (F := Ideal) (idx_main_v16 (ix3 b h t)) = ⊥ := ninf_eq_bot
  rw [e, max_bot_left]
  unfold rowMax
  exact congrArg (fun f => Finset.fold max ninf f (Finset.univ : Finset (Fin 2048)))
    (funext fun s => scores_at x0 b h t s)

/-- The unnormalised weight at (b, h, t, s). -/
theorem expo_at (b : Fin 4) (h : Fin 16) (t s : Fin 2048) :
    val_main_v21 (F := Ideal) x0 (ix4 b h t s) = expo (qcol x0 b h t) (keys x0 b h) s := by
  rw [val_main_v21_apply, Ideal.hostUnary_exp_def, val_main_v20_apply, Ideal.subf_def, val_main_v19_apply,
    val_main_v18_apply, idx19, scores_at, rowmax_at]
  rfl

/-- The normaliser of the row (b, h, t): the sum starts from the word of zero. -/
theorem denom_at (b : Fin 4) (h : Fin 16) (t : Fin 2048) :
    val_main_v22 (F := Ideal) x0 (ix3 b h t) = denom (qcol x0 b h t) (keys x0 b h) := by
  rw [val_main_v22_apply, val_main_cst_3_apply, Ideal.ofBits_def, Ideal.ofBits_zero_f32, zero_add]
  unfold denom
  refine Finset.sum_congr rfl fun s _ => ?_
  rw [idx22, expo_at]

/-- The weight at (b, h, t, s). -/
theorem weight_at (b : Fin 4) (h : Fin 16) (t s : Fin 2048) :
    val_main_v25 (F := Ideal) x0 (ix4 b h t s) = weight (qcol x0 b h t) (keys x0 b h) s := by
  rw [val_main_v25_apply, Ideal.hostDivf_def, val_main_v24_apply, val_main_v23_apply, idx24, expo_at, denom_at]
  rfl

/-- The attended value at (b, h, c, t). -/
theorem attend_at (b : Fin 4) (h : Fin 16) (c : Fin 64) (t : Fin 2048) :
    val_main_v26 (F := Ideal) x0 (ix4 b h c t) = resultAt x0 b h c t := by
  rw [val_main_v26_apply]
  unfold resultAt attend
  refine Finset.sum_congr rfl fun s _ => ?_
  rw [lidx26, ridx26, v_at, weight_at]
  rfl

/-- The result array at (b, r, t). -/
theorem result_at (b : Fin 4) (r : Fin 1024) (t : Fin 2048) :
    val_main_v27 (F := Ideal) x0 (ix3 b r t) = resultRow x0 b r t := by
  rw [val_main_v27_apply, idx27, attend_at]
  rfl

/-- The reference program's result is the specification's result array. -/
theorem ref_eq (x0 : (⟨S4x3072x2048, .f32⟩ : BufTy).Contents (Elt Ideal)) :
    Cert.ReferenceIdeal.Read.val_main_v27 (F := Ideal) x0 = Cert.Attn.result x0 := by
  funext i
  obtain ⟨b, r, t, rfl⟩ : ∃ (b : Fin 4) (r : Fin 1024) (t : Fin 2048), i = ix3 b r t := ⟨i 0, i 1, i 2, eq_ix3 i⟩
  rw [result_at, result_ix3]

end Cert.ReferenceIdeal.RefValue

end
-- ==== Proof.lean ====
/-
  Softmax attention, one (batch entry, head) at a time, by a pipelined kernel against its plain reference.

  The kernel walks a grid of 64 heads × 2 query tiles. Its three input windows — a tile of 1024 query columns, the
  head's 2048 key columns and its 2048 value columns, 64 features each — are blocks of ONE array, the input
  reshaped to [192, 64, 2048]; the array is therefore held at three shares that make the whole, dealt at entry.
  At a head's first tile the body narrows the key and value blocks into two scratch buffers, which the second
  tile reads back (the head has not changed, so they are what that tile's own blocks would give); at every tile
  it scales the queries by 1/8, takes the scores against the keys, the softmax along the positions, and the
  weighted sum of the values, and stores a [64, 1024] tile of the result. The reference scales queries and keys
  each by 1/√√64 and does the same on whole arrays. Over the extended reals the two scalings agree because the
  product is commutative and associative and (1/√√64)² = 1/8; everything else is the same sum, maximum,
  exponential and quotient index by index, so the two results are equal for every input, finite or not.
-/
import proofs.«163904_j31181462569018_2_alg».proof.Defs
import proofs.«163904_j31181462569018_2_alg».proof.Proof.Gen.Kernel
import proofs.«163904_j31181462569018_2_alg».proof.Proof.Gen.KernelIdeal
import proofs.«163904_j31181462569018_2_alg».proof.Proof.Gen.ReferenceIdeal
import proofs.«163904_j31181462569018_2_alg».proof.Proof.Gen.Pre_finite_inputs
import proofs.«163904_j31181462569018_2_alg».proof.Proof.Gen.ReferenceIdeal.Run
import proofs.«163904_j31181462569018_2_alg».proof.Proof.Gen.ReferenceIdeal.Read
import proofs.«163904_j31181462569018_2_alg».proof.Proof.KRun
import proofs.«163904_j31181462569018_2_alg».proof.Proof.KIRun
import proofs.«163904_j31181462569018_2_alg».proof.Proof.KIFinal
import proofs.«163904_j31181462569018_2_alg».proof.Proof.RefValue
import Idealize.ShloMosaic.Adequacy
import Idealize.ShloMosaic.Init

noncomputable section

namespace Cert.Proof

open Idealize.ShloMosaic Idealize.ShloMosaic.TcCoe Idealize.SL.Sem

namespace Claims

/-- The kernel as printed runs to the end and leaves its input as it was. -/
theorem frame_k : Cert.frame_Kernel := fun m ρ _ =>
  (θ_run Cert.Kernel.defs _ _).mono (fun _ h c => (h c).2) (Cert.Kernel.Hand.run_main (F := Bits) m ρ)

/-- So does the kernel read over the extended reals. -/
theorem frame_ki : Cert.frame_KernelIdeal := fun m ρ _ =>
  (θ_run Cert.KernelIdeal.defs _ _).mono (fun _ h c => (h c).2) (Cert.KernelIdeal.Hand.run_main (F := Ideal) m ρ)

/-- The reference is a line of array operations: it runs to the end and leaves its input as it was. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with softmax attention of the input, head by head. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.ReferenceIdeal.RefValue.ref_eq, hagree c]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
